-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x10 : Shape := ⟨2, ![262144, 10]⟩
abbrev S286x286 : Shape := ⟨2, ![286, 286]⟩
abbrev S_ : Shape := ⟨0, ![]⟩

class Facts : Prop where
  bcast_S_S262144x10 : S_.BroadcastsInDim S262144x10 (![] : Fin 0 → Fin S262144x10.rank)
  reducesTo_S262144x10_S_d0_1 : S262144x10.ReducesTo [0, 1] S_
  h_S_ : 0 < S_.numel
  bcast_S_S286x286 : S_.BroadcastsInDim S286x286 (![] : Fin 0 → Fin S286x286.rank)
  reducesTo_S286x286_S_d0_1 : S286x286.ReducesTo [0, 1] S_

variable [Facts]

def fn {F : FTy → Type} [FloatOps F] (main_arg0 : FVec F S262144x10 .f32) (main_arg1 : FVec F S286x286 .f32) : IVec S_ 1 :=
  let main_v0 : FVec F S262144x10 .f32 := Host.absf main_arg0
  let main_cst : FVec F S_ .f32 := constant S_ .f32 0x7F800000#32
  let main_v1 : FVec F S262144x10 .f32 := broadcastInDim S262144x10 ![] bcast_S_S262144x10 main_cst
  let main_v2 : IVec S262144x10 1 := cmpf .olt main_v0 main_v1
  let main_c : IVec S_ 1 := constantI S_ 1 1#1
  let main_v3 : IVec S_ 1 := (fun x v => Host.reduce IntOp.andi x v reducesTo_S262144x10_S_d0_1 h_S_) main_v2 main_c
  let main_v4 : FVec F S286x286 .f32 := Host.absf main_arg1
  let main_cst_0 : FVec F S_ .f32 := constant S_ .f32 0x7F800000#32
  let main_v5 : FVec F S286x286 .f32 := broadcastInDim S286x286 ![] bcast_S_S286x286 main_cst_0
  let main_v6 : IVec S286x286 1 := cmpf .olt main_v4 main_v5
  let main_c_1 : IVec S_ 1 := constantI S_ 1 1#1
  let main_v7 : IVec S_ 1 := (fun x v => Host.reduce IntOp.andi x v reducesTo_S286x286_S_d0_1 h_S_) main_v6 main_c_1
  let main_v8 : IVec S_ 1 := andi main_v3 main_v7
  main_v8
-- ==== Kernel.lean ====
abbrev S262144x10 : Shape := ⟨2, ![262144, 10]⟩
abbrev S286x286 : Shape := ⟨2, ![286, 286]⟩
abbrev S10x262144 : Shape := ⟨2, ![10, 262144]⟩
abbrev S286x262144 : Shape := ⟨2, ![286, 262144]⟩
abbrev S10x2048 : Shape := ⟨2, ![10, 2048]⟩
abbrev S286x2048 : Shape := ⟨2, ![286, 2048]⟩
abbrev S1x2048 : Shape := ⟨2, ![1, 2048]⟩
abbrev S9x2048 : Shape := ⟨2, ![9, 2048]⟩
abbrev S8x2048 : Shape := ⟨2, ![8, 2048]⟩
abbrev S7x2048 : Shape := ⟨2, ![7, 2048]⟩
abbrev S6x2048 : Shape := ⟨2, ![6, 2048]⟩
abbrev S5x2048 : Shape := ⟨2, ![5, 2048]⟩
abbrev S4x2048 : Shape := ⟨2, ![4, 2048]⟩
abbrev S3x2048 : Shape := ⟨2, ![3, 2048]⟩
abbrev S2x2048 : Shape := ⟨2, ![2, 2048]⟩
abbrev S55x2048 : Shape := ⟨2, ![55, 2048]⟩
abbrev S45x2048 : Shape := ⟨2, ![45, 2048]⟩
abbrev S36x2048 : Shape := ⟨2, ![36, 2048]⟩
abbrev S28x2048 : Shape := ⟨2, ![28, 2048]⟩
abbrev S21x2048 : Shape := ⟨2, ![21, 2048]⟩
abbrev S15x2048 : Shape := ⟨2, ![15, 2048]⟩
abbrev S220x2048 : Shape := ⟨2, ![220, 2048]⟩
abbrev S262144x286 : Shape := ⟨2, ![262144, 286]⟩
abbrev S262144 : Shape := ⟨1, ![262144]⟩
abbrev S4096x286 : Shape := ⟨2, ![4096, 286]⟩
abbrev S4096 : Shape := ⟨1, ![4096]⟩
abbrev S262144x1x1 : Shape := ⟨3, ![262144, 1, 1]⟩

abbrev nBuf : Space → Nat
  | .hbm => 8
  | .vmem => 9
  | .smem => 0
  | _ => 0

abbrev bufTy : (tb : Table) → Fin (tcTables nBuf tb) → BufTy
  | .hbm, ⟨0, _⟩ => ⟨S262144x10, .f32⟩
  | .hbm, ⟨1, _⟩ => ⟨S286x286, .f32⟩
  | .hbm, ⟨2, _⟩ => ⟨S10x262144, .f32⟩
  | .hbm, ⟨3, _⟩ => ⟨S286x262144, .f32⟩
  | .hbm, ⟨4, _⟩ => ⟨S262144x286, .f32⟩
  | .hbm, ⟨5, _⟩ => ⟨S286x286, .bf16⟩
  | .hbm, ⟨6, _⟩ => ⟨S262144, .f32⟩
  | .hbm, ⟨7, _⟩ => ⟨S262144x1x1, .f32⟩
  | .local _ .vmem, ⟨0, _⟩ => ⟨S10x2048, .f32⟩
  | .local _ .vmem, ⟨1, _⟩ => ⟨S10x2048, .f32⟩
  | .local _ .vmem, ⟨2, _⟩ => ⟨S286x2048, .f32⟩
  | .local _ .vmem, ⟨3, _⟩ => ⟨S286x2048, .f32⟩
  | .local _ .vmem, ⟨4, _⟩ => ⟨S4096x286, .f32⟩
  | .local _ .vmem, ⟨5, _⟩ => ⟨S4096x286, .f32⟩
  | .local _ .vmem, ⟨6, _⟩ => ⟨S286x286, .bf16⟩
  | .local _ .vmem, ⟨7, _⟩ => ⟨S4096, .f32⟩
  | .local _ .vmem, ⟨8, _⟩ => ⟨S4096, .f32⟩
  | _, _ => ⟨S262144x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S10x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S286x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S4096x286 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S286x286 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S262144x10_S10x262144 : S262144x10.ShapeCasts S10x262144
  inb_S10x2048_S10x2048_0_0 : ∀ a, (![0, 0] : Fin 2 → Nat) a + S10x2048.size a ≤ S10x2048.size a
  h_S10x2048 : 0 < S10x2048.numel
  shapeCasts_S10x2048_S10x2048 : S10x2048.ShapeCasts S10x2048
  slices_S10x2048_o0_0_S1x2048 : S10x2048.Slices ![0, 0] S1x2048
  broadcasts_S1x2048_S10x2048 : S1x2048.Broadcasts S10x2048
  slices_S10x2048_o1_0_S1x2048 : S10x2048.Slices ![1, 0] S1x2048
  slices_S10x2048_o1_0_S9x2048 : S10x2048.Slices ![1, 0] S9x2048
  broadcasts_S1x2048_S9x2048 : S1x2048.Broadcasts S9x2048
  slices_S10x2048_o2_0_S1x2048 : S10x2048.Slices ![2, 0] S1x2048
  slices_S10x2048_o2_0_S8x2048 : S10x2048.Slices ![2, 0] S8x2048
  broadcasts_S1x2048_S8x2048 : S1x2048.Broadcasts S8x2048
  slices_S10x2048_o3_0_S1x2048 : S10x2048.Slices ![3, 0] S1x2048
  slices_S10x2048_o3_0_S7x2048 : S10x2048.Slices ![3, 0] S7x2048
  broadcasts_S1x2048_S7x2048 : S1x2048.Broadcasts S7x2048
  slices_S10x2048_o4_0_S1x2048 : S10x2048.Slices ![4, 0] S1x2048
  slices_S10x2048_o4_0_S6x2048 : S10x2048.Slices ![4, 0] S6x2048
  broadcasts_S1x2048_S6x2048 : S1x2048.Broadcasts S6x2048
  slices_S10x2048_o5_0_S1x2048 : S10x2048.Slices ![5, 0] S1x2048
  slices_S10x2048_o5_0_S5x2048 : S10x2048.Slices ![5, 0] S5x2048
  broadcasts_S1x2048_S5x2048 : S1x2048.Broadcasts S5x2048
  slices_S10x2048_o6_0_S1x2048 : S10x2048.Slices ![6, 0] S1x2048
  slices_S10x2048_o6_0_S4x2048 : S10x2048.Slices ![6, 0] S4x2048
  broadcasts_S1x2048_S4x2048 : S1x2048.Broadcasts S4x2048
  slices_S10x2048_o7_0_S1x2048 : S10x2048.Slices ![7, 0] S1x2048
  slices_S10x2048_o7_0_S3x2048 : S10x2048.Slices ![7, 0] S3x2048
  broadcasts_S1x2048_S3x2048 : S1x2048.Broadcasts S3x2048
  slices_S10x2048_o8_0_S1x2048 : S10x2048.Slices ![8, 0] S1x2048
  slices_S10x2048_o8_0_S2x2048 : S10x2048.Slices ![8, 0] S2x2048
  broadcasts_S1x2048_S2x2048 : S1x2048.Broadcasts S2x2048
  slices_S10x2048_o9_0_S1x2048 : S10x2048.Slices ![9, 0] S1x2048
  concatenates_S10x2048_S9x2048_S8x2048_S7x2048_S6x2048_S5x2048_S4x2048_S3x2048_S2x2048_S1x2048_S55x2048_d0 : Shape.Concatenates [S10x2048, S9x2048, S8x2048, S7x2048, S6x2048, S5x2048, S4x2048, S3x2048, S2x2048, S1x2048] S55x2048 0
  broadcasts_S1x2048_S55x2048 : S1x2048.Broadcasts S55x2048
  slices_S55x2048_o10_0_S45x2048 : S55x2048.Slices ![10, 0] S45x2048
  broadcasts_S1x2048_S45x2048 : S1x2048.Broadcasts S45x2048
  slices_S55x2048_o19_0_S36x2048 : S55x2048.Slices ![19, 0] S36x2048
  broadcasts_S1x2048_S36x2048 : S1x2048.Broadcasts S36x2048
  slices_S55x2048_o27_0_S28x2048 : S55x2048.Slices ![27, 0] S28x2048
  broadcasts_S1x2048_S28x2048 : S1x2048.Broadcasts S28x2048
  slices_S55x2048_o34_0_S21x2048 : S55x2048.Slices ![34, 0] S21x2048
  broadcasts_S1x2048_S21x2048 : S1x2048.Broadcasts S21x2048
  slices_S55x2048_o40_0_S15x2048 : S55x2048.Slices ![40, 0] S15x2048
  broadcasts_S1x2048_S15x2048 : S1x2048.Broadcasts S15x2048
  slices_S55x2048_o45_0_S10x2048 : S55x2048.Slices ![45, 0] S10x2048
  slices_S55x2048_o49_0_S6x2048 : S55x2048.Slices ![49, 0] S6x2048
  slices_S55x2048_o52_0_S3x2048 : S55x2048.Slices ![52, 0] S3x2048
  slices_S55x2048_o54_0_S1x2048 : S55x2048.Slices ![54, 0] S1x2048
  concatenates_S55x2048_S45x2048_S36x2048_S28x2048_S21x2048_S15x2048_S10x2048_S6x2048_S3x2048_S1x2048_S220x2048_d0 : Shape.Concatenates [S55x2048, S45x2048, S36x2048, S28x2048, S21x2048, S15x2048, S10x2048, S6x2048, S3x2048, S1x2048] S220x2048 0
  concatenates_S1x2048_S10x2048_S55x2048_S220x2048_S286x2048_d0 : Shape.Concatenates [S1x2048, S10x2048, S55x2048, S220x2048] S286x2048 0
  inb_S286x2048_S286x2048_0_0 : ∀ a, (![0, 0] : Fin 2 → Nat) a + S286x2048.size a ≤ S286x2048.size a
  h_S286x2048 : 0 < S286x2048.numel
  shapeCasts_S286x262144_S262144x286 : S286x262144.ShapeCasts S262144x286
  bitsLt_bf16_f32 : FTy.bits .bf16 < FTy.bits .f32
  inb_S4096x286_S4096x286_0_0 : ∀ a, (![0, 0] : Fin 2 → Nat) a + S4096x286.size a ≤ S4096x286.size a
  h_S4096x286 : 0 < S4096x286.numel
  shapeCasts_S4096x286_S4096x286 : S4096x286.ShapeCasts S4096x286
  inb_S286x286_S286x286_0_0 : ∀ a, (![0, 0] : Fin 2 → Nat) a + S286x286.size a ≤ S286x286.size a
  h_S286x286 : 0 < S286x286.numel
  shapeCasts_S286x286_S286x286 : S286x286.ShapeCasts S286x286
  reduces_S4096x286_S4096 : S4096x286.Reduces [1] S4096
  inb_S4096_S4096_0 : ∀ a, (![0] : Fin 1 → Nat) a + S4096.size a ≤ S4096.size a
  h_S4096 : 0 < S4096.numel
  shapeCasts_S262144_S262144x1x1 : S262144.ShapeCasts S262144x1x1
  dot_S4096x286_S286x286_S4096x286_1_0_0_1_n_n_wf : DotDims.WF S4096x286 S286x286 S4096x286 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x2048.size a ≤ S10x262144.size a
  hwx0_0 : ∀ i : grid0.Coords, EltTy.bits .f32 = 32 ∨ (Rect.block (s := S10x262144) S10x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S286x2048.size a ≤ S286x262144.size a
  hwx0_1 : ∀ i : grid0.Coords, EltTy.bits .f32 = 32 ∨ (Rect.block (s := S286x262144) S286x2048.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x286.size a ≤ S262144x286.size a
  hwx1_0 : ∀ i : grid1.Coords, EltTy.bits .f32 = 32 ∨ (Rect.block (s := S262144x286) S4096x286.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S286x286.size a ≤ S286x286.size a
  hwx1_1 : ∀ i : grid1.Coords, EltTy.bits .bf16 = 32 ∨ (Rect.block (s := S286x286) S286x286.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096.size a ≤ S262144.size a
  hwx1_2 : ∀ i : grid1.Coords, EltTy.bits .f32 = 32 ∨ (Rect.block (s := S262144) S4096.size (cc1_transform_2 i) (hinb1_2 i)).WholeWords (EltTy.packing .f32)

variable [Facts₀]

def dot_S4096x286_S286x286_S4096x286_1_0_0_1_n_n : DotDims S4096x286 S286x286 S4096x286 where
  lhsContracting := [1]
  rhsContracting := [0]
  lhsNonContracting := [0]
  rhsNonContracting := [1]
  lhsBatch := []
  rhsBatch := []
  wf := dot_S4096x286_S286x286_S4096x286_1_0_0_1_n_n_wf

abbrev win0_0 : Pipeline.Window sig grid0 :=
  Pipeline.Window.ofSpec (Memref.whole main_v0) S10x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S286x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S4096x286.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S286x286.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S262144x10 : Shape := ⟨2, ![262144, 10]⟩
abbrev S286x286 : Shape := ⟨2, ![286, 286]⟩
abbrev S55 : Shape := ⟨1, ![55]⟩
abbrev S220 : Shape := ⟨1, ![220]⟩
abbrev S10x262144 : Shape := ⟨2, ![10, 262144]⟩
abbrev S_ : Shape := ⟨0, ![]⟩
abbrev S1x262144 : Shape := ⟨2, ![1, 262144]⟩
abbrev S55x1 : Shape := ⟨2, ![55, 1]⟩
abbrev S55x262144 : Shape := ⟨2, ![55, 262144]⟩
abbrev S220x1 : Shape := ⟨2, ![220, 1]⟩
abbrev S220x262144 : Shape := ⟨2, ![220, 262144]⟩
abbrev S286x262144 : Shape := ⟨2, ![286, 262144]⟩
abbrev S262144x286 : Shape := ⟨2, ![262144, 286]⟩
abbrev S262144 : Shape := ⟨1, ![262144]⟩
abbrev S262144x1x1 : Shape := ⟨3, ![262144, 1, 1]⟩

abbrev nBuf : Space → Nat
  | .hbm => 55
  | .vmem => 0
  | .smem => 0
  | _ => 0

abbrev bufTy : (tb : Table) → Fin (tcTables nBuf tb) → BufTy
  | .hbm, ⟨0, _⟩ => ⟨S262144x10, .f32⟩
  | .hbm, ⟨1, _⟩ => ⟨S286x286, .f32⟩
  | .hbm, ⟨2, _⟩ => ⟨S55, .i32⟩
  | .hbm, ⟨3, _⟩ => ⟨S55, .i1⟩
  | .hbm, ⟨4, _⟩ => ⟨S55, .i32⟩
  | .hbm, ⟨5, _⟩ => ⟨S55, .i1⟩
  | .hbm, ⟨6, _⟩ => ⟨S220, .i32⟩
  | .hbm, ⟨7, _⟩ => ⟨S220, .i1⟩
  | .hbm, ⟨8, _⟩ => ⟨S220, .i32⟩
  | .hbm, ⟨9, _⟩ => ⟨S220, .i1⟩
  | .hbm, ⟨10, _⟩ => ⟨S220, .i32⟩
  | .hbm, ⟨11, _⟩ => ⟨S220, .i1⟩
  | .hbm, ⟨12, _⟩ => ⟨S10x262144, .f32⟩
  | .hbm, ⟨13, _⟩ => ⟨S_, .f32⟩
  | .hbm, ⟨14, _⟩ => ⟨S1x262144, .f32⟩
  | .hbm, ⟨15, _⟩ => ⟨S_, .i32⟩
  | .hbm, ⟨16, _⟩ => ⟨S55, .i32⟩
  | .hbm, ⟨17, _⟩ => ⟨S55, .i32⟩
  | .hbm, ⟨18, _⟩ => ⟨S55, .i32⟩
  | .hbm, ⟨19, _⟩ => ⟨S55x1, .i32⟩
  | .hbm, ⟨20, _⟩ => ⟨S55x262144, .f32⟩
  | .hbm, ⟨21, _⟩ => ⟨S_, .i32⟩
  | .hbm, ⟨22, _⟩ => ⟨S55, .i32⟩
  | .hbm, ⟨23, _⟩ => ⟨S55, .i32⟩
  | .hbm, ⟨24, _⟩ => ⟨S55, .i32⟩
  | .hbm, ⟨25, _⟩ => ⟨S55x1, .i32⟩
  | .hbm, ⟨26, _⟩ => ⟨S55x262144, .f32⟩
  | .hbm, ⟨27, _⟩ => ⟨S55x262144, .f32⟩
  | .hbm, ⟨28, _⟩ => ⟨S_, .i32⟩
  | .hbm, ⟨29, _⟩ => ⟨S220, .i32⟩
  | .hbm, ⟨30, _⟩ => ⟨S220, .i32⟩
  | .hbm, ⟨31, _⟩ => ⟨S220, .i32⟩
  | .hbm, ⟨32, _⟩ => ⟨S220x1, .i32⟩
  | .hbm, ⟨33, _⟩ => ⟨S220x262144, .f32⟩
  | .hbm, ⟨34, _⟩ => ⟨S_, .i32⟩
  | .hbm, ⟨35, _⟩ => ⟨S220, .i32⟩
  | .hbm, ⟨36, _⟩ => ⟨S220, .i32⟩
  | .hbm, ⟨37, _⟩ => ⟨S220, .i32⟩
  | .hbm, ⟨38, _⟩ => ⟨S220x1, .i32⟩
  | .hbm, ⟨39, _⟩ => ⟨S220x262144, .f32⟩
  | .hbm, ⟨40, _⟩ => ⟨S220x262144, .f32⟩
  | .hbm, ⟨41, _⟩ => ⟨S_, .i32⟩
  | .hbm, ⟨42, _⟩ => ⟨S220, .i32⟩
  | .hbm, ⟨43, _⟩ => ⟨S220, .i32⟩
  | .hbm, ⟨44, _⟩ => ⟨S220, .i32⟩
  | .hbm, ⟨45, _⟩ => ⟨S220x1, .i32⟩
  | .hbm, ⟨46, _⟩ => ⟨S220x262144, .f32⟩
  | .hbm, ⟨47, _⟩ => ⟨S220x262144, .f32⟩
  | .hbm, ⟨48, _⟩ => ⟨S286x262144, .f32⟩
  | .hbm, ⟨49, _⟩ => ⟨S262144x286, .f32⟩
  | .hbm, ⟨50, _⟩ => ⟨S262144x286, .f32⟩
  | .hbm, ⟨51, _⟩ => ⟨S262144x286, .f32⟩
  | .hbm, ⟨52, _⟩ => ⟨S_, .f32⟩
  | .hbm, ⟨53, _⟩ => ⟨S262144, .f32⟩
  | .hbm, ⟨54, _⟩ => ⟨S262144x1x1, .f32⟩
  | _, _ => ⟨S262144x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_c_7 : Ref sig .tc := ⟨.hbm, 10, rfl⟩
abbrev main_c_8 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_c_9 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_10 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_11 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_12 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_13 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_14 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]

class Facts₀ : Prop where
  shapeCasts_S262144x10_S10x262144 : S262144x10.ShapeCasts S10x262144
  bcast_S_S1x262144 : S_.BroadcastsInDim S1x262144 (![] : Fin 0 → Fin S1x262144.rank)
  bcast_S_S55 : S_.BroadcastsInDim S55 (![] : Fin 0 → Fin S55.rank)
  bcast_S55_S55x1_0 : S55.BroadcastsInDim S55x1 (![0] : Fin 1 → Fin S55x1.rank)
  bcast_S_S220 : S_.BroadcastsInDim S220 (![] : Fin 0 → Fin S220.rank)
  bcast_S220_S220x1_0 : S220.BroadcastsInDim S220x1 (![0] : Fin 1 → Fin S220x1.rank)
  concatenates_S1x262144_S10x262144_S55x262144_S220x262144_S286x262144_d0 : Shape.Concatenates [S1x262144, S10x262144, S55x262144, S220x262144] S286x262144 0
  shapeCasts_S286x262144_S262144x286 : S286x262144.ShapeCasts S262144x286
  reducesTo_S262144x286_S262144_d1 : S262144x286.ReducesTo [1] S262144
  h_S_ : 0 < S_.numel
  shapeCasts_S262144_S262144x1x1 : S262144.ShapeCasts S262144x1x1
  gather_S10x262144_S55x1_S55x262144_1_0_n_n_0_1_1262144_wf : GatherDims.WF S10x262144 S55x1 S55x262144 [1] [0] [] [0] [] 1 ![1, 262144]
  gather_S10x262144_S220x1_S220x262144_1_0_n_n_0_1_1262144_wf : GatherDims.WF S10x262144 S220x1 S220x262144 [1] [0] [] [0] [] 1 ![1, 262144]
  dot_S262144x286_S286x286_S262144x286_1_0_0_1_n_n_wf : DotDims.WF S262144x286 S286x286 S262144x286 [1] [0] [0] [1] [] []

variable [Facts₀]

def gather_S10x262144_S55x1_S55x262144_1_0_n_n_0_1_1262144 : GatherDims S10x262144 S55x1 S55x262144 where
  offsetDims := [1]
  collapsedSliceDims := [0]
  operandBatchingDims := []
  startIndicesBatchingDims := []
  startIndexMap := [0]
  indexVectorDim := 1
  sliceSizes := ![1, 262144]
  wf := gather_S10x262144_S55x1_S55x262144_1_0_n_n_0_1_1262144_wf
def gather_S10x262144_S220x1_S220x262144_1_0_n_n_0_1_1262144 : GatherDims S10x262144 S220x1 S220x262144 where
  offsetDims := [1]
  collapsedSliceDims := [0]
  operandBatchingDims := []
  startIndicesBatchingDims := []
  startIndexMap := [0]
  indexVectorDim := 1
  sliceSizes := ![1, 262144]
  wf := gather_S10x262144_S220x1_S220x262144_1_0_n_n_0_1_1262144_wf
def dot_S262144x286_S286x286_S262144x286_1_0_0_1_n_n : DotDims S262144x286 S286x286 S262144x286 where
  lhsContracting := [1]
  rhsContracting := [0]
  lhsNonContracting := [0]
  rhsNonContracting := [1]
  lhsBatch := []
  rhsBatch := []
  wf := dot_S262144x286_S286x286_S262144x286_1_0_0_1_n_n_wf

class Facts : Prop extends Facts₀ where

variable [Facts]
-- ==== Proof.KerRun.lean ====
/-
  The kernel's run with its result named: every weakly fair execution of @main terminates, nothing faulting, with the
  result buffer at what the last host stretch leaves there (the fold `W5` of the run's segments read at the result)
  and the two arguments as launched.

  The run is the one that proves the frame — host stretch, first region, host stretch, second region, host stretch,
  each segment entered from the contents the one before leaves —; only the last step differs, which reads the final
  state at the result buffer as well as at the arguments.
-/
import proofs.«167303_j9311489098219_2_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main with the result buffer read off the last boundary's contents. -/
theorem run_named : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v5 (by decide)),
       (h c _ (mem_uc main_arg0 (by decide))).trans (W5_main_arg0 m ρ c),
       (h c _ (mem_uc main_arg1 (by decide))).trans (W5_main_arg1 m ρ c)⟩)

end Cert.KernelIdeal.KerRun

end
-- ==== Proof.LibConcatRows.lean ====
/-
  A concatenation of matrices stacked along the rows, read at an entry.

  The pieces have one width `w` and any numbers of rows; the result has `R` rows. Entry `(r, q)` of the stack lies in
  the piece whose span of rows holds `r`: if `pre` rows come before piece `k` and the piece has `n` rows, then for
  `pre ≤ r < pre + n` the entry is the piece's entry `(r - pre, q)`.
-/
import Idealize.ShloMosaic.Lib.ValueIdx
import Idealize.ShloMosaic.Lib.Pipeline.Value

namespace Idealize.ShloMosaic.ConcatRows

open Idealize.ShloMosaic Idealize.ShloMosaic.ValueIdx

variable {α : Type}

/-- Entry `(r, q)` of a stack of matrices of one width is entry `(r - pre, q)` of the piece whose rows are
    `pre, …, pre + n - 1` of the stack. -/
theorem concat_rows_piece {R w : ℕ} (xs : List ((s : Shape) × (s.Idx → α)))
    (h : Shape.Concatenates (xs.map (·.1)) ⟨2, ![R, w]⟩ (0 : Fin 2))
    (k : ℕ) (hk : k < xs.length) (n : ℕ) (x₁ : (⟨2, ![n, w]⟩ : Shape).Idx → α) (hxk : xs[k] = ⟨⟨2, ![n, w]⟩, x₁⟩) (pre : ℕ)
    (hpre : (((xs.take k).map (·.1)).map fun s : Shape =>
      if h : s.rank = (⟨2, ![R, w]⟩ : Shape).rank then s.size ((0 : Fin 2).cast h.symm) else 0).sum = pre)
    (r : Fin R) (q : Fin w) (hlo : pre ≤ r.val) (hhi : r.val < pre + n) :
    concatenate ⟨2, ![R, w]⟩ (0 : Fin 2) xs h (ix2 r q) = x₁ (ix2 (⟨r.val - pre, by omega⟩ : Fin n) q) := by
  refine concatenate_apply_piece (0 : Fin 2) xs h (ix2 r q) k hk _ x₁ hxk rfl pre hpre _ (fun b hb => ?_) ?_
  · match b with
    | ⟨0, _⟩ => exact absurd rfl hb
    | ⟨1, _⟩ => rfl
  · show pre + (r.val - pre) = r.val
    omega

end Idealize.ShloMosaic.ConcatRows
-- ==== Proof.Spec.lean ====
/-
  What both programs compute, as one function of the two arguments.

  From a matrix `x` of 10 rows (one row per variable, one column per point) the table of all monomials of degree at
  most 3 in the ten variables is built column by column: row 0 is the constant one, rows 1–10 the variables, rows 11–65
  the 55 products `x_a x_b` with `a ≤ b` in lexicographic order of `(a, b)`, rows 66–285 the 220 products
  `x_j (x_a x_b)` with `j ≤ a ≤ b` in lexicographic order of `(j, a, b)` (`ver`). The 286 × N table is then reread
  row-major as an N × 286 matrix `v`, and the result at point `n` is the quadratic form
  `∑_d (∑_k v(n,k) M(k,d)) · v(n,d)` (`quad`).

  `ver` is stated for any width `w`, so that a block of columns of the table is the table of that block of
  columns (`ver_cols`): an entry of the table depends on its own column of `x` only.
-/
import Idealize.ShloMosaic.Lib.ValueIdx
import Idealize.ShloMosaic.Lib.ValueIdxCoords
import Idealize.ShloMosaic.Lib.Pipeline.Value
import Idealize.ShloMosaic.PureOps.Ideal
import proofs.«167303_j9311489098219_2_alg».proof.Proof.LibConcatRows

noncomputable section

namespace Cert.Veronese

open Idealize.ShloMosaic Idealize.ShloMosaic.ValueIdx Idealize.ShloMosaic.ConcatRows

/-! ## The monomials' variables -/

/-- The pairs `(a, b)`, `a ≤ b < 10`, in lexicographic order: the degree-2 monomials `x_a x_b`. -/
def pairs : List (ℕ × ℕ) :=
  (List.range 10).flatMap fun a => ((List.range 10).filter (a ≤ ·)).map fun b => (a, b)

/-- The triples `(j, a, b)`, `j ≤ a ≤ b < 10`, in lexicographic order: the degree-3 monomials `x_j x_a x_b`. -/
def triples : List (ℕ × ℕ × ℕ) :=
  (List.range 10).flatMap fun j => (pairs.filter (j ≤ ·.1)).map fun p => (j, p.1, p.2)

/-- A number read as one of the ten variables. -/
def var (k : ℕ) : Fin 10 := ⟨k % 10, Nat.mod_lt _ (by decide)⟩

/-- The two variables of the degree-2 monomial in row `r` of its block. -/
def A2 (r : Fin 55) : Fin 10 := var (pairs.getD r.val (0, 0)).1
def B2 (r : Fin 55) : Fin 10 := var (pairs.getD r.val (0, 0)).2
/-- The three variables of the degree-3 monomial in row `r` of its block. -/
def A3 (r : Fin 220) : Fin 10 := var (triples.getD r.val (0, 0, 0)).1
def B3 (r : Fin 220) : Fin 10 := var (triples.getD r.val (0, 0, 0)).2.1
def C3 (r : Fin 220) : Fin 10 := var (triples.getD r.val (0, 0, 0)).2.2

/-! ## The table of monomials -/

/-- The constant monomial. -/
abbrev one : EReal := Ideal.ofBits .f32 0x3F800000#32

/-- The degree-2 block: row `r` is `x_a x_b` for the `r`-th pair `(a, b)`. -/
def deg2 {w : ℕ} (x : (⟨2, ![10, w]⟩ : Shape).Idx → EReal) : (⟨2, ![55, w]⟩ : Shape).Idx → EReal :=
  fun i => x (ix2 (A2 (i 0)) (i 1)) * x (ix2 (B2 (i 0)) (i 1))

/-- The degree-3 block: row `r` is `x_j (x_a x_b)` for the `r`-th triple `(j, a, b)`. -/
def deg3 {w : ℕ} (x : (⟨2, ![10, w]⟩ : Shape).Idx → EReal) : (⟨2, ![220, w]⟩ : Shape).Idx → EReal :=
  fun i => x (ix2 (A3 (i 0)) (i 1)) * (x (ix2 (B3 (i 0)) (i 1)) * x (ix2 (C3 (i 0)) (i 1)))

/-- The shapes of the four blocks of the table, in order. -/
abbrev blockShapes (w : ℕ) : List Shape := [⟨2, ![1, w]⟩, ⟨2, ![10, w]⟩, ⟨2, ![55, w]⟩, ⟨2, ![220, w]⟩]

/-- The four blocks of the table, in order: the constant, the variables, the degree-2 block, the degree-3 block. -/
abbrev blocks {w : ℕ} (x : (⟨2, ![10, w]⟩ : Shape).Idx → EReal) : List ((s : Shape) × (s.Idx → EReal)) :=
  [⟨⟨2, ![1, w]⟩, fun _ => one⟩, ⟨⟨2, ![10, w]⟩, x⟩, ⟨⟨2, ![55, w]⟩, deg2 x⟩, ⟨⟨2, ![220, w]⟩, deg3 x⟩]

/-- The table of all monomials of degree at most 3: the four blocks stacked. -/
def ver {w : ℕ} (hc : Shape.Concatenates (blockShapes w) ⟨2, ![286, w]⟩ (0 : Fin 2))
    (x : (⟨2, ![10, w]⟩ : Shape).Idx → EReal) : (⟨2, ![286, w]⟩ : Shape).Idx → EReal :=
  concatenate ⟨2, ![286, w]⟩ (0 : Fin 2) (blocks x) hc

/-- An entry of the table depends on its own column of `x` only: if column `q` of `x'` is column `n` of `x`, then
    column `q` of the table of `x'` is column `n` of the table of `x`. -/
theorem ver_cols {w w' : ℕ} (hc : Shape.Concatenates (blockShapes w) ⟨2, ![286, w]⟩ (0 : Fin 2))
    (hc' : Shape.Concatenates (blockShapes w') ⟨2, ![286, w']⟩ (0 : Fin 2))
    (x : (⟨2, ![10, w]⟩ : Shape).Idx → EReal) (x' : (⟨2, ![10, w']⟩ : Shape).Idx → EReal) (n : Fin w) (q : Fin w')
    (hcol : ∀ j : Fin 10, x' (ix2 j q) = x (ix2 j n)) (r : Fin 286) :
    ver hc' x' (ix2 r q) = ver hc x (ix2 r n) := by
  unfold ver
  rcases (show r.val < 1 ∨ (1 ≤ r.val ∧ r.val < 11) ∨ (11 ≤ r.val ∧ r.val < 66) ∨ 66 ≤ r.val by omega) with h | h | h | h
  · rw [concat_rows_piece (blocks x') hc' 0 (show 0 < 4 by omega) 1 _ rfl 0 rfl r q (by omega) (by omega),
      concat_rows_piece (blocks x) hc 0 (show 0 < 4 by omega) 1 _ rfl 0 rfl r n (by omega) (by omega)]
  · rw [concat_rows_piece (blocks x') hc' 1 (show 1 < 4 by omega) 10 _ rfl 1 rfl r q h.1 (by omega),
      concat_rows_piece (blocks x) hc 1 (show 1 < 4 by omega) 10 _ rfl 1 rfl r n h.1 (by omega)]
    exact hcol _
  · rw [concat_rows_piece (blocks x') hc' 2 (show 2 < 4 by omega) 55 _ rfl 11 rfl r q h.1 (by omega),
      concat_rows_piece (blocks x) hc 2 (show 2 < 4 by omega) 55 _ rfl 11 rfl r n h.1 (by omega)]
    simp only [deg2, ix2_0, ix2_1, hcol]
  · rw [concat_rows_piece (blocks x') hc' 3 (show 3 < 4 by omega) 220 _ rfl 66 rfl r q h (by have := r.isLt; omega),
      concat_rows_piece (blocks x) hc 3 (show 3 < 4 by omega) 220 _ rfl 66 rfl r n h (by have := r.isLt; omega)]
    simp only [deg3, ix2_0, ix2_1, hcol]

/-! ## The quadratic form -/

/-- The quadratic form of each row of `v`: at `n`, `∑_d (∑_k v(n,k) M(k,d)) · v(n,d)`. -/
def rowForm (v : (⟨2, ![262144, 286]⟩ : Shape).Idx → EReal) (M : (⟨2, ![286, 286]⟩ : Shape).Idx → EReal) :
    (⟨1, ![262144]⟩ : Shape).Idx → EReal :=
  fun i => ∑ d : Fin 286, (∑ k : Fin 286, v (ix2 (i 0) k) * M (ix2 k d)) * v (ix2 (i 0) d)

/-- The table reread row-major as a 262144 × 286 matrix, its rows' quadratic forms, as a 262144 × 1 × 1 array. -/
def quad (h2 : (⟨2, ![286, 262144]⟩ : Shape).ShapeCasts ⟨2, ![262144, 286]⟩)
    (h3 : (⟨1, ![262144]⟩ : Shape).ShapeCasts ⟨3, ![262144, 1, 1]⟩)
    (V : (⟨2, ![286, 262144]⟩ : Shape).Idx → EReal) (M : (⟨2, ![286, 286]⟩ : Shape).Idx → EReal) :
    (⟨3, ![262144, 1, 1]⟩ : Shape).Idx → EReal :=
  shapeCast ⟨3, ![262144, 1, 1]⟩ (rowForm (shapeCast ⟨2, ![262144, 286]⟩ V h2) M) h3

/-- The whole value: `x` reread row-major as 10 rows of points, the table of monomials, the quadratic forms. -/
def result (h1 : (⟨2, ![262144, 10]⟩ : Shape).ShapeCasts ⟨2, ![10, 262144]⟩)
    (hc : Shape.Concatenates (blockShapes 262144) ⟨2, ![286, 262144]⟩ (0 : Fin 2))
    (h2 : (⟨2, ![286, 262144]⟩ : Shape).ShapeCasts ⟨2, ![262144, 286]⟩)
    (h3 : (⟨1, ![262144]⟩ : Shape).ShapeCasts ⟨3, ![262144, 1, 1]⟩)
    (x : (⟨2, ![262144, 10]⟩ : Shape).Idx → EReal) (M : (⟨2, ![286, 286]⟩ : Shape).Idx → EReal) :
    (⟨3, ![262144, 1, 1]⟩ : Shape).Idx → EReal :=
  quad h2 h3 (ver hc (shapeCast ⟨2, ![10, 262144]⟩ x h1)) M

end Cert.Veronese

end
-- ==== Proof.LibRowOps.lean ====
/-
  Row-wise operations read at an index, at the ideal values.

  * the sum of a matrix along its second axis, as a kernel's lane reduction and as the host's reduce: at row `p` it is
    the sum over `k` of the entries `(p, k)` (the host's with its initial value in front);
  * a product of an `a × b` by a `b × c` matrix contracting the one shared axis, as a kernel's matrix product into a
    zero accumulator and as the host's dot product: at `(p, n)` it is the sum over `k` of `l (p, k) * r (k, n)`;
  * "keep the entry if it is at least zero, else take the other value", as comparison and select compute it;
  * the host's broadcasts of a scalar, of a vector to a column, of a vector to a row, of a column along columns and
    of a row along rows.
-/
import Idealize.ShloMosaic.Lib.ValueIdx
import Idealize.ShloMosaic.Lib.ValueLayout
import Idealize.ShloMosaic.Lib.Pipeline.Value
import Idealize.ShloMosaic.PureOps.Ideal.Laws

namespace Cert.LibRowOps

open Idealize.ShloMosaic Idealize.ShloMosaic.ValueIdx

/-! ## Row sums -/

/-- The index a row reduction lifts `(p)` and the position `k` to is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A kernel's lane sum of an `a × b` block, at row `p`: the sum of the row's entries. -/
theorem multiReduction_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an `a × b` array along its rows, at row `p`: the initial value plus the sum of the row's entries. -/
theorem hostReduceAdd_row_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-! ## One shared axis contracted -/

/-- The contraction's sum re-indexed by the shared axis's coordinate, when the operand indices at an output index
    `(p, n)` and a contraction position `k` are `(p, k)` and `(k, n)`. -/
theorem sum_contr {a b c : ℕ} (D : DotDims ⟨2, ![a, b]⟩ ⟨2, ![b, c]⟩ ⟨2, ![a, c]⟩) (hrk : D.contr.rank = 1)
    (hsz : D.contr.size ⟨0, by omega⟩ = b)
    (hl0 : ∀ j k, (D.lhsIdx j k (0 : Fin 2)).val = (j (0 : Fin 2)).val)
    (hl1 : ∀ j k, (D.lhsIdx j k (1 : Fin 2)).val = (k ⟨0, by omega⟩).val)
    (hr0 : ∀ j k, (D.rhsIdx j k (0 : Fin 2)).val = (k ⟨0, by omega⟩).val)
    (hr1 : ∀ j k, (D.rhsIdx j k (1 : Fin 2)).val = (j (1 : Fin 2)).val)
    (l : (⟨2, ![a, b]⟩ : Shape).Idx → EReal) (r : (⟨2, ![b, c]⟩ : Shape).Idx → EReal) (p : Fin a) (n : Fin c) :
    ∑ k : D.contr.Idx, l (D.lhsIdx (ix2 p n) k) * r (D.rhsIdx (ix2 p n) k) = ∑ k : Fin b, l (ix2 p k) * r (ix2 k n) := by
  rw [← Equiv.sum_comp (contrEquiv1 D b hrk hsz).symm]
  refine Finset.sum_congr rfl fun k _ => ?_
  have e1 : D.lhsIdx (ix2 p n) ((contrEquiv1 D b hrk hsz).symm k) = ix2 p k := by
    funext ax
    apply Fin.ext
    match ax with
    | ⟨0, _⟩ => exact hl0 _ _
    | ⟨1, _⟩ => exact (hl1 _ _).trans (contrEquiv1_symm_val D b hrk hsz k)
  have e2 : D.rhsIdx (ix2 p n) ((contrEquiv1 D b hrk hsz).symm k) = ix2 k n := by
    funext ax
    apply Fin.ext
    match ax with
    | ⟨0, _⟩ => exact (hr0 _ _).trans (contrEquiv1_symm_val D b hrk hsz k)
    | ⟨1, _⟩ => exact hr1 _ _
  rw [e1, e2]

/-! ## Keep what is at least zero -/

/-- The select on "at least the zero word": the entry itself when it is at least zero, the other value otherwise. -/
theorem select_oge_zero (v w : EReal) :
    Scalar.select (FloatOps.cmpf (F := Ideal) (φ := .f32) .oge v (Ideal.ofBits .f32 0x00000000#32)) v w
      = if (0 : EReal) ≤ v then v else w := by
  rw [Ideal.cmpf_def, Ideal.ofBits_zero_f32]
  unfold Ideal.cmp Scalar.select
  by_cases h : (0 : EReal) ≤ v
  · simp [h]
  · simp [h]

/-! ## The host's broadcasts -/

section
variable {α : Type}

/-- A scalar broadcast to any shape reads the scalar. -/
theorem broadcastInDim_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- A vector of `a` entries broadcast to an `a × 1` column reads, at `(p, u)`, entry `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A vector of `b` entries broadcast to a `1 × b` row reads, at `(u, q)`, entry `q`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- An `a × 1` column broadcast along `b` columns reads, at `(p, q)`, the column's entry `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A `1 × b` row broadcast along `a` rows reads, at `(p, q)`, the row's entry `q`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end

end Cert.LibRowOps
-- ==== Proof.KerQuad.lean ====
/-
  The second region's result array: the quadratic form of every row.

  At a grid point `t` (of 64) the body loads block `t` of the first operand, a 262144 × 286 matrix `v` cut into 64 blocks of
  4096 rows (every column), and the whole of the second operand, a 286 × 286 matrix `M`; it stores, at entry `p` of its
  4096-entry result block, `∑_d (∑_k v(4096 t + p, k) · M(k, d)) · v(4096 t + p, d)`:

  * the change of float format and the casts to the same shape are the identity at the ideal values;
  * the matrix product into the zero accumulator is the sum over the one shared axis;
  * the elementwise product is the product of the entries;
  * the lane reduction from the zero word is the sum along the row.

  Block `t` of the result is entries `4096 t … 4096 t + 4095`, and the 64 blocks tile the 262144 entries (entry `n` is in
  the block of point `n / 4096`), so after the region the result array is, entry by entry, the quadratic form of the same
  row of `v` in `M` (`quad_array`). Everything is stated at a parameter `V`, the buffer contents when the region is entered.
-/
import proofs.«167303_j9311489098219_2_alg».proof.Proof.Gen.KernelIdeal.Frame
import proofs.«167303_j9311489098219_2_alg».proof.Proof.Spec
import proofs.«167303_j9311489098219_2_alg».proof.Proof.LibRowOps
import Idealize.ShloMosaic.Lib.Pipeline.Value
import Idealize.ShloMosaic.PureOps.Ideal.Laws

noncomputable section

namespace Cert.KernelIdeal.KerQuad

open Cert.KernelIdeal Cert.KernelIdeal.Gen
open Idealize.ShloMosaic Idealize.ShloMosaic.TcCoe Idealize.SL.Sem Idealize.ShloMosaic.ValueIdx
open Idealize.ShloMosaic.Pipeline (Dat)

/-! ## The matrix product's index maps -/

/-- The dimension numbers of the body's matrix product: rows by the shared axis, times the shared axis by columns. -/
abbrev DQ : DotDims S4096x286 S286x286 S4096x286 := dot_S4096x286_S286x286_S4096x286_1_0_0_1_n_n

theorem dq_rank : DQ.contr.rank = 1 := rfl
theorem dq_size : DQ.contr.size ⟨0, by rw [dq_rank]; exact Nat.one_pos⟩ = 286 := rfl

theorem dq_lhs0 (j : S4096x286.Idx) (k : DQ.contr.Idx) : (DQ.lhsIdx j k (0 : Fin 2)).val = (j (0 : Fin 2)).val := by
  simp [DotDims.lhsIdx, DQ, dot_S4096x286_S286x286_S4096x286_1_0_0_1_n_n]; rfl
theorem dq_lhs1 (j : S4096x286.Idx) (k : DQ.contr.Idx) : (DQ.lhsIdx j k (1 : Fin 2)).val = (k ⟨0, by rw [dq_rank]; exact Nat.one_pos⟩).val :=
  DQ.lhsIdx_val_of_single rfl j k
theorem dq_rhs0 (j : S4096x286.Idx) (k : DQ.contr.Idx) : (DQ.rhsIdx j k (0 : Fin 2)).val = (k ⟨0, by rw [dq_rank]; exact Nat.one_pos⟩).val :=
  DQ.rhsIdx_val_of_single rfl j k
theorem dq_rhs1 (j : S4096x286.Idx) (k : DQ.contr.Idx) : (DQ.rhsIdx j k (1 : Fin 2)).val = (j (1 : Fin 2)).val := by
  simp [DotDims.rhsIdx, DQ, dot_S4096x286_S286x286_S4096x286_1_0_0_1_n_n]; rfl

/-! ## The body's store at an entry -/

/-- Entry `p` of what the body stores, from its two loaded blocks: the quadratic form of row `p` of the first block in the
    matrix that is the second. The changes of format and the casts to the same shape are the identity, the product into the
    zero accumulator is the sum over the shared axis, and the lane reduction from the zero word is the row's sum. -/
theorem pay_apply (x0 : Vec Ideal S4096x286 .f32) (x1 : Vec Ideal S286x286 .bf16) (p : Fin 4096) :
    (k1_pay1 (F := Ideal) x0 x1 : S4096.Idx → EReal) (ix1 p)
      = ∑ d : Fin 286, (∑ k : Fin 286, (x0 : S4096x286.Idx → EReal) (ix2 p k) * (x1 : S286x286.Idx → EReal) (ix2 k d))
          * (x0 : S4096x286.Idx → EReal) (ix2 p d) := by
  unfold k1_pay1
  refine (LibRowOps.multiReduction_row_apply _ _ _ _ _ p).trans ?_
  refine Finset.sum_congr rfl fun d _ => ?_
  rw [mulf_apply, shapeCast_self, shapeCast_self]
  refine congrArg (· * _) ?_
  refine (Ideal.matmul_constant_zero_apply (φ₁ := .bf16) (φ₂ := .bf16) DQ none _ _ (ix2 p d)).trans ?_
  exact LibRowOps.sum_contr DQ dq_rank dq_size dq_lhs0 dq_lhs1 dq_rhs0 dq_rhs1
    (x0 : S4096x286.Idx → EReal) (x1 : S286x286.Idx → EReal) p d

/-! ## From the blocks to the array -/

section Blocks

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl

/-- The index maps over the grid: at point `t` the first operand's block is block `t` along the rows and the only
    one along the columns, the matrix's block is the only one, and the result's block is block `t`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = t.val :=
  (by decide +kernel : ∀ t : Fin grid1.N, _)

/-- The first operand's block at point `t` is rows `4096 t … 4096 t + 4095` of its array, every column. -/
theorem blk0_apply (c : Dev nD) (t : Fin cfg1.N) (p : Fin 4096) (k : Fin 286) (n : Fin 262144)
    (hn : n.val = 4096 * t.val + p.val) :
    (iblk1 V c 0 t : S4096x286.Idx → EReal) (ix2 p k) = (V c main_v2 : S262144x286.Idx → EReal) (ix2 n k) := by
  obtain ⟨e0, e1, -, -, -⟩ := idx_facts t
  show (V c main_v2 : S262144x286.Idx → EReal) (((cfg1.win 0).blk t).view.emb (ix2 p k)) = _
  refine congrArg _ ?_
  funext a
  apply Fin.ext
  match a with
  | ⟨0, _⟩ => show win1_0.index t (0 : Fin 2) * 4096 + 1 * p.val = n.val; omega
  | ⟨1, _⟩ => show win1_0.index t (1 : Fin 2) * 286 + 1 * k.val = k.val; omega

/-- The matrix's block at every point is the whole matrix. -/
theorem blk1_apply (c : Dev nD) (t : Fin cfg1.N) (k d : Fin 286) :
    (iblk1 V c 1 t : S286x286.Idx → EReal) (ix2 k d) = (V c main_v3 : S286x286.Idx → EReal) (ix2 k d) := by
  obtain ⟨-, -, e2, e3, -⟩ := idx_facts t
  show (V c main_v3 : S286x286.Idx → EReal) (((cfg1.win 1).blk t).view.emb (ix2 k d)) = _
  refine congrArg _ ?_
  funext a
  apply Fin.ext
  match a with
  | ⟨0, _⟩ => show win1_1.index t (0 : Fin 2) * 286 + 1 * k.val = k.val; omega
  | ⟨1, _⟩ => show win1_1.index t (1 : Fin 2) * 286 + 1 * d.val = d.val; omega

/-- Entry `p` of what point `t` stores is the quadratic form of row `4096 t + p`. -/
theorem stored_apply (c : Dev nD) (t : Fin cfg1.N) (p : Fin 4096) (n : Fin 262144) (hn : n.val = 4096 * t.val + p.val) :
    (k1_pay1 (F := Ideal) (iblk1 V c 0 t) (iblk1 V c 1 t) : S4096.Idx → EReal) (ix1 p)
      = Cert.Veronese.rowForm (V c main_v2) (V c main_v3) (ix1 n) := by
  rw [pay_apply]
  unfold Cert.Veronese.rowForm
  refine Finset.sum_congr rfl fun d _ => ?_
  rw [blk0_apply V c t p d n hn]
  refine congrArg (· * _) ?_
  refine Finset.sum_congr rfl fun k _ => ?_
  rw [blk0_apply V c t p k n hn, blk1_apply V c t k d]

/-- What point `t` writes back is block `t` of the rows' quadratic forms. -/
theorem flushed_eq (c : Dev nD) (t : Fin cfg1.N) :
    (dat1 (F := Ideal) V c).flushed 2 t
      = ((cfg1.win 2).blk t).view.read (Elt Ideal) (Cert.Veronese.rowForm (V c main_v2) (V c main_v3)) := by
  show (cfg1.win 2).cut (grid1.coords t) ((dat1 (F := Ideal) V c).after 2 t) = _
  rw [after1_2]
  unfold out1_2
  rw [View.canon_unit_zero hz1]
  simp only [View.ld_unit_zero (S := S4096x286) hz2, View.ld_unit_zero (S := S286x286) hz2]
  obtain ⟨-, -, -, -, e4⟩ := idx_facts t
  have hN : cfg1.N = 64 := N_1
  have ht : t.val < cfg1.N := t.isLt
  have key : ∀ j : S4096.Idx, (k1_pay1 (F := Ideal) (iblk1 V c 0 t) (iblk1 V c 1 t) : S4096.Idx → EReal) j
      = Cert.Veronese.rowForm (V c main_v2) (V c main_v3) (((cfg1.win 2).blk t).view.emb j) := by
    intro j
    obtain ⟨p, rfl⟩ : ∃ p : Fin 4096, j = ix1 p := ⟨j 0, eq_ix1 j⟩
    have hp : p.val < 4096 := p.isLt
    refine (stored_apply V c t p ⟨4096 * t.val + p.val, by omega⟩ rfl).trans ?_
    refine congrArg _ ?_
    funext a
    apply Fin.ext
    match a with
    | ⟨0, _⟩ => show 4096 * t.val + p.val = win1_2.index t (0 : Fin 1) * 4096 + 1 * p.val; omega
  funext j
  exact key j

/-- An entry of the result array is in point `t`'s block iff it is in the block's range. -/
theorem mem_blk (t : Fin cfg1.N) (i : S262144.Idx) :
    i ∈ ((cfg1.win 2).blk t).view.set
      ↔ ∀ a : Fin 1, win1_2.index t a * S4096.size a ≤ (i a).val ∧ (i a).val < win1_2.index t a * S4096.size a + S4096.size a := by
  show i ∈ ((View.whole main_v4).slice (win1_2.rect t)).set ↔ _
  rw [View.set_slice_whole, Rect.mem_set_unit]
  exact Iff.rfl

/-- The 64 blocks of 4096 entries tile the 262144 entries: entry `n` is in the block of point `n / 4096`. -/
theorem cover (i : S262144.Idx) :
    ∃ t : Fin cfg1.N, (cfg1.win 2).flush t = true ∧ i ∈ ((cfg1.win 2).blk t).view.set := by
  have hN : cfg1.N = 64 := N_1
  have hi : (i 0).val < 262144 := (i 0).isLt
  have hlt : (i 0).val / 4096 < cfg1.N := by omega
  obtain ⟨-, -, -, -, e4⟩ := idx_facts ⟨(i 0).val / 4096, hlt⟩
  refine ⟨⟨(i 0).val / 4096, hlt⟩, flush1_2 _, ?_⟩
  rw [mem_blk]
  intro a
  match a with
  | ⟨0, _⟩ =>
    show win1_2.index ⟨(i 0).val / 4096, hlt⟩ (0 : Fin 1) * 4096 ≤ (i 0).val
      ∧ (i 0).val < win1_2.index ⟨(i 0).val / 4096, hlt⟩ (0 : Fin 1) * 4096 + 4096
    rw [e4]
    show (i 0).val / 4096 * 4096 ≤ (i 0).val ∧ (i 0).val < (i 0).val / 4096 * 4096 + 4096
    omega

end Blocks

/-- THE RESULT ARRAY after the region: the quadratic form of every row of the first operand in the second. -/
theorem quad_array
    (V : (c : Dev nD) → (b : Ref sig .tc) → Buf (Elt Ideal) ((c : Thread nD τ).loc b)) (c : Dev nD) :
    (Cert.KernelIdeal.Gen.dat1 (F := Ideal) V c).arrAt 2 cfg1.N
      = Cert.Veronese.rowForm (V c main_v2) (V c main_v3) :=
  (dat1 (F := Ideal) V c).arrAt_eq_of_cover 2 (Cert.Veronese.rowForm (V c main_v2) (V c main_v3))
    (fun t _ => flushed_eq V c t) cover

end Cert.KernelIdeal.KerQuad

end
-- ==== Proof.VerPieces.lean ====
/-
  One row of a matrix times a band of rows of another, read at an entry.

  The monomial table is built from pieces of three kinds: row `j` of `x` repeated down `n` rows times the rows
  `off, …, off + n - 1` of `y`; the same with `y` taken whole; and the one-row case, row `j` of `x` times row
  `off` of `y`. Entry `(s, q)` of each is `x(j, q) · y(off + s, q)`.
-/
import Idealize.ShloMosaic.Lib.ValueIdx
import Idealize.ShloMosaic.Lib.ValueIdxCoords
import Idealize.ShloMosaic.Lib.ValueLayout
import Idealize.ShloMosaic.Lib.Pipeline.Value
import Idealize.ShloMosaic.Lib.Pipeline.RowLoads
import Idealize.ShloMosaic.PureOps.Ideal

noncomputable section

namespace Cert.VerPieces

open Idealize.ShloMosaic Idealize.ShloMosaic.ValueIdx

variable {m m' w n : ℕ}

/-- Row `j` of `x`, sliced out as a one-row matrix, at `(u, q)`. -/
theorem slice_row_apply (x : (⟨2, ![m, w]⟩ : Shape).Idx → EReal) (j : ℕ) (hj : j + 1 ≤ m)
    (h1 : (⟨2, ![m, w]⟩ : Shape).Slices ![j, 0] ⟨2, ![1, w]⟩) (u : Fin 1) (q : Fin w) :
    extractStridedSlice ⟨2, ![1, w]⟩ ![j, 0] x h1 (ix2 u q) = x (ix2 (⟨j, by omega⟩ : Fin m) q) := by
  rw [RowLoads.extractStridedSlice_rows_eq_rowsFrom x j hj h1]
  unfold RowLoads.rowsFrom
  refine congrArg x (congrArg (fun a => ix2 a q) (Fin.ext ?_))
  show j + u.val = j
  omega

/-- Rows `off, …` of `y`, sliced out, at `(s, q)`. -/
theorem slice_rows_apply (y : (⟨2, ![m', w]⟩ : Shape).Idx → EReal) (off : ℕ) (ho : off + n ≤ m')
    (h2 : (⟨2, ![m', w]⟩ : Shape).Slices ![off, 0] ⟨2, ![n, w]⟩) (s : Fin n) (q : Fin w) :
    extractStridedSlice ⟨2, ![n, w]⟩ ![off, 0] y h2 (ix2 s q) = y (ix2 (⟨off + s.val, by omega⟩ : Fin m') q) := by
  rw [RowLoads.extractStridedSlice_rows_eq_rowsFrom y off ho h2]
  rfl

/-- Row `j` of `x` down `n` rows, times rows `off, …, off + n - 1` of `y`: entry `(s, q)` is `x(j, q) · y(off + s, q)`. -/
theorem row_mul_rows (x : (⟨2, ![m, w]⟩ : Shape).Idx → EReal) (y : (⟨2, ![m', w]⟩ : Shape).Idx → EReal)
    (j off : ℕ) (hj : j + 1 ≤ m) (ho : off + n ≤ m')
    (h1 : (⟨2, ![m, w]⟩ : Shape).Slices ![j, 0] ⟨2, ![1, w]⟩) (hb : (⟨2, ![1, w]⟩ : Shape).Broadcasts ⟨2, ![n, w]⟩)
    (h2 : (⟨2, ![m', w]⟩ : Shape).Slices ![off, 0] ⟨2, ![n, w]⟩) (s : Fin n) (q : Fin w) :
    (mulf (broadcastTo ⟨2, ![n, w]⟩ (extractStridedSlice ⟨2, ![1, w]⟩ ![j, 0] x h1) hb)
        (extractStridedSlice ⟨2, ![n, w]⟩ ![off, 0] y h2) : FVec Ideal ⟨2, ![n, w]⟩ .f32) (ix2 s q)
      = x (ix2 (⟨j, by omega⟩ : Fin m) q) * y (ix2 (⟨off + s.val, by omega⟩ : Fin m') q) := by
  rw [mulf_apply, broadcastTo_1b_ab_apply, slice_row_apply x j hj h1, slice_rows_apply y off ho h2]

/-- Row `j` of `x` down the `n` rows of `y`, times `y`: entry `(s, q)` is `x(j, q) · y(s, q)`. -/
theorem row_mul_all (x : (⟨2, ![m, w]⟩ : Shape).Idx → EReal) (y : (⟨2, ![n, w]⟩ : Shape).Idx → EReal)
    (j : ℕ) (hj : j + 1 ≤ m)
    (h1 : (⟨2, ![m, w]⟩ : Shape).Slices ![j, 0] ⟨2, ![1, w]⟩) (hb : (⟨2, ![1, w]⟩ : Shape).Broadcasts ⟨2, ![n, w]⟩)
    (s : Fin n) (q : Fin w) :
    (mulf (broadcastTo ⟨2, ![n, w]⟩ (extractStridedSlice ⟨2, ![1, w]⟩ ![j, 0] x h1) hb) y
        : FVec Ideal ⟨2, ![n, w]⟩ .f32) (ix2 s q)
      = x (ix2 (⟨j, by omega⟩ : Fin m) q) * y (ix2 s q) := by
  rw [mulf_apply, broadcastTo_1b_ab_apply, slice_row_apply x j hj h1]

/-- Row `j` of `x` times row `off` of `y`, as one-row matrices: entry `(u, q)` is `x(j, q) · y(off, q)`. -/
theorem row_mul_row (x : (⟨2, ![m, w]⟩ : Shape).Idx → EReal) (y : (⟨2, ![m', w]⟩ : Shape).Idx → EReal)
    (j off : ℕ) (hj : j + 1 ≤ m) (ho : off + 1 ≤ m')
    (h1 : (⟨2, ![m, w]⟩ : Shape).Slices ![j, 0] ⟨2, ![1, w]⟩)
    (h2 : (⟨2, ![m', w]⟩ : Shape).Slices ![off, 0] ⟨2, ![1, w]⟩) (u : Fin 1) (q : Fin w) :
    (mulf (extractStridedSlice ⟨2, ![1, w]⟩ ![j, 0] x h1) (extractStridedSlice ⟨2, ![1, w]⟩ ![off, 0] y h2)
        : FVec Ideal ⟨2, ![1, w]⟩ .f32) (ix2 u q)
      = x (ix2 (⟨j, by omega⟩ : Fin m) q) * y (ix2 (⟨off, by omega⟩ : Fin m') q) := by
  rw [mulf_apply, slice_row_apply x j hj h1, slice_row_apply y off ho h2]

end Cert.VerPieces

end
-- ==== Proof.KerVer.lean ====
/-
  The kernel's first region, one block of 2048 columns at a time: what its body stores is the table of monomials of
  the block's ten rows.

  The body builds the degree-2 block group by group — group `j` is row `j` times rows `j, …, 9` — and stacks the ten
  groups; row `r` of the stack is then `x_a x_b` for the `r`-th pair `a ≤ b` in lexicographic order. It builds the
  degree-3 block the same way from the degree-2 block — group `j` is row `j` times the rows of the degree-2 block
  from its group `j` on —, so row `r` is `x_j (x_a x_b)` for the `r`-th triple `j ≤ a ≤ b`. The constant row, the
  block itself and the two blocks are stacked: the table `ver` of the block.
-/
import proofs.«167303_j9311489098219_2_alg».proof.Proof.Gen.KernelIdeal.Skeleton
import proofs.«167303_j9311489098219_2_alg».proof.Proof.Spec
import proofs.«167303_j9311489098219_2_alg».proof.Proof.VerPieces

set_option maxRecDepth 100000

noncomputable section

namespace Cert.KernelIdeal.KerVer

open Idealize.ShloMosaic Idealize.ShloMosaic.ValueIdx Idealize.ShloMosaic.ConcatRows
open Cert.Veronese Cert.VerPieces Cert.KernelIdeal Cert.KernelIdeal.Gen

/-- The block as the body reads it: the identity reshape changes nothing. -/
theorem pay2_eq (x : Vec Ideal S10x2048 .f32) : k0_pay2 (F := Ideal) x = x := by
  unfold k0_pay2
  exact shapeCast_self _ _

/-- The degree-2 and degree-3 blocks read at an entry. -/
theorem deg2_apply {w : ℕ} (x : (⟨2, ![10, w]⟩ : Shape).Idx → EReal) (r : Fin 55) (q : Fin w) :
    deg2 x (ix2 r q) = x (ix2 (A2 r) q) * x (ix2 (B2 r) q) := rfl
theorem deg3_apply {w : ℕ} (x : (⟨2, ![10, w]⟩ : Shape).Idx → EReal) (r : Fin 220) (q : Fin w) :
    deg3 x (ix2 r q) = x (ix2 (A3 r) q) * (x (ix2 (B3 r) q) * x (ix2 (C3 r) q)) := rfl

/-- Row `r` of a stack of ten pieces lies in piece `k`, which has `n` rows and `pre` rows before it: the stack's
    entry `(r, q)` is that piece's entry `(r - pre, q)`. -/
local macro "in_piece " k:num n:num pre:num r:ident q:ident hlo:term:max hhi:term:max : tactic =>
  `(tactic| (refine (concat_rows_piece _ _ $k ?hk $n ?x1 ?hxk $pre ?hpre $r $q $hlo $hhi).trans ?main
             case hk => exact (by decide : ($k : ℕ) < 10)
             case hxk => exact rfl
             case hpre => exact rfl))

/-- Group `j` of the degree-2 block (`n` rows after `pre`): its entry `(r - pre, q)`, read by `lem`, is
    `x_j x_{j + (r - pre)}`, and those are the two variables of the `r`-th pair. -/
local macro "deg2_group " j:num n:num pre:num lem:term:max b:term:max r:ident q:ident hlo:term:max hhi:term:max : tactic =>
  `(tactic| (
    have T : ∀ r' : Fin 55, $pre ≤ r'.val → r'.val < $pre + $n →
        (A2 r').val = $j ∧ (B2 r').val = $j + (r'.val - $pre) := by decide
    obtain ⟨ha, hb⟩ := T $r $hlo $hhi
    in_piece $j $n $pre $r $q $hlo $hhi
    rw [$lem:term, pay2_eq, show A2 $r = ⟨$j, by omega⟩ from Fin.ext ha,
      show B2 $r = ⟨$b, by omega⟩ from Fin.ext (by show (B2 $r).val = $b; omega)]))

/-- The degree-2 block the body builds is `deg2` of the block: row `r` is `x_a x_b` for the `r`-th pair. -/
theorem pay4_eq (x : Vec Ideal S10x2048 .f32) : k0_pay4 (F := Ideal) x = deg2 (w := 2048) x := by
  funext i
  obtain ⟨r, q, rfl⟩ : ∃ (r : Fin 55) (q : Fin 2048), i = ix2 r q := ⟨i 0, i 1, eq_ix2 i⟩
  rw [deg2_apply]
  unfold k0_pay4
  have hr := r.isLt
  rcases (show r.val < 10 ∨ (10 ≤ r.val ∧ r.val < 19) ∨ (19 ≤ r.val ∧ r.val < 27) ∨ (27 ≤ r.val ∧ r.val < 34)
      ∨ (34 ≤ r.val ∧ r.val < 40) ∨ (40 ≤ r.val ∧ r.val < 45) ∨ (45 ≤ r.val ∧ r.val < 49) ∨ (49 ≤ r.val ∧ r.val < 52)
      ∨ (52 ≤ r.val ∧ r.val < 54) ∨ 54 ≤ r.val by omega) with h | h | h | h | h | h | h | h | h | h
  · deg2_group 0 10 0 (row_mul_all (k0_pay2 x) (k0_pay2 x) 0 (by omega)) (r.val - 0) r q (Nat.zero_le _) (by omega)
  · deg2_group 1 9 10 (row_mul_rows (k0_pay2 x) (k0_pay2 x) 1 1 (by omega) (show 1 + 9 ≤ 10 by omega)) (1 + (r.val - 10)) r q h.1 h.2
  · deg2_group 2 8 19 (row_mul_rows (k0_pay2 x) (k0_pay2 x) 2 2 (by omega) (show 2 + 8 ≤ 10 by omega)) (2 + (r.val - 19)) r q h.1 h.2
  · deg2_group 3 7 27 (row_mul_rows (k0_pay2 x) (k0_pay2 x) 3 3 (by omega) (show 3 + 7 ≤ 10 by omega)) (3 + (r.val - 27)) r q h.1 h.2
  · deg2_group 4 6 34 (row_mul_rows (k0_pay2 x) (k0_pay2 x) 4 4 (by omega) (show 4 + 6 ≤ 10 by omega)) (4 + (r.val - 34)) r q h.1 h.2
  · deg2_group 5 5 40 (row_mul_rows (k0_pay2 x) (k0_pay2 x) 5 5 (by omega) (show 5 + 5 ≤ 10 by omega)) (5 + (r.val - 40)) r q h.1 h.2
  · deg2_group 6 4 45 (row_mul_rows (k0_pay2 x) (k0_pay2 x) 6 6 (by omega) (show 6 + 4 ≤ 10 by omega)) (6 + (r.val - 45)) r q h.1 h.2
  · deg2_group 7 3 49 (row_mul_rows (k0_pay2 x) (k0_pay2 x) 7 7 (by omega) (show 7 + 3 ≤ 10 by omega)) (7 + (r.val - 49)) r q h.1 h.2
  · deg2_group 8 2 52 (row_mul_rows (k0_pay2 x) (k0_pay2 x) 8 8 (by omega) (show 8 + 2 ≤ 10 by omega)) (8 + (r.val - 52)) r q h.1 h.2
  · deg2_group 9 1 54 (row_mul_row (k0_pay2 x) (k0_pay2 x) 9 9 (by omega) (by omega)) (9) r q h (by omega)

/-- Group `j` of the degree-3 block (`n` rows after `pre`; its second factor starts at row `off` of the degree-2
    block): its entry `(r - pre, q)`, read by `lem`, is `x_j` times row `s = off + (r - pre)` of the degree-2 block,
    that is `x_j (x_a x_b)` for the `s`-th pair `(a, b)`; and `(j, a, b)` is the `r`-th triple. -/
local macro "deg3_group " j:num n:num pre:num off:num lem:term:max s:term:max r:ident q:ident hlo:term:max hhi:term:max : tactic =>
  `(tactic| (
    have T : ∀ r' : Fin 220, $pre ≤ r'.val → r'.val < $pre + $n →
        (A3 r').val = $j ∧ (B3 r').val = (pairs.getD ($off + (r'.val - $pre)) (0, 0)).1 % 10
          ∧ (C3 r').val = (pairs.getD ($off + (r'.val - $pre)) (0, 0)).2 % 10 := by decide
    obtain ⟨ha, hb, hc⟩ := T $r $hlo $hhi
    have es : $off + (Fin.val $r - $pre) = $s := by omega
    replace hb := es ▸ hb
    replace hc := es ▸ hc
    in_piece $j $n $pre $r $q $hlo $hhi
    (try unfold k0_pay5); (try unfold k0_pay6); (try unfold k0_pay7); (try unfold k0_pay8 k0_pay9)
    rw [$lem:term, pay2_eq, pay4_eq, deg2_apply, show A3 $r = ⟨$j, by omega⟩ from Fin.ext ha,
      show B3 $r = A2 ⟨$s, by omega⟩ from Fin.ext hb, show C3 $r = B2 ⟨$s, by omega⟩ from Fin.ext hc]))

/-- Row `r` of a stack of four pieces lies in piece `k` (`n` rows after `pre`). -/
local macro "in_block " k:num n:num pre:num r:ident q:ident hlo:term:max hhi:term:max : tactic =>
  `(tactic| (refine (concat_rows_piece _ _ $k ?hk $n ?x1 ?hxk $pre ?hpre $r $q $hlo $hhi).trans ?main
             case hk => exact (by decide : ($k : ℕ) < 4)
             case hxk => exact rfl
             case hpre => exact rfl))

/-- WHAT THE BODY STORES, entry by entry: the table of monomials of the block it read. -/
theorem pay1_apply (hc : Shape.Concatenates (blockShapes 2048) ⟨2, ![286, 2048]⟩ (0 : Fin 2))
    (x : Vec Ideal S10x2048 .f32) (r : Fin 286) (q : Fin 2048) :
    k0_pay1 (F := Ideal) (k0_pay2 x) k0_pay3 (k0_pay4 x) (k0_pay5 x) (k0_pay6 x) (k0_pay7 x) (k0_pay8 x) (k0_pay9 x)
        (ix2 r q)
      = ver hc x (ix2 r q) := by
  unfold k0_pay1 ver
  have hr := r.isLt
  rcases (show r.val < 1 ∨ (1 ≤ r.val ∧ r.val < 11) ∨ (11 ≤ r.val ∧ r.val < 66) ∨ 66 ≤ r.val by omega) with h | h | h | h
  · rw [concat_rows_piece (blocks x) hc 0 (show 0 < 4 by omega) 1 _ rfl 0 rfl r q (by omega) (by omega)]
    in_block 0 1 0 r q (by omega) (by omega)
    rfl
  · rw [concat_rows_piece (blocks x) hc 1 (show 1 < 4 by omega) 10 _ rfl 1 rfl r q h.1 (by omega)]
    in_block 1 10 1 r q h.1 (by omega)
    rw [pay2_eq]
  · rw [concat_rows_piece (blocks x) hc 2 (show 2 < 4 by omega) 55 _ rfl 11 rfl r q h.1 (by omega)]
    in_block 2 55 11 r q h.1 (by omega)
    rw [pay4_eq]
  · rw [concat_rows_piece (blocks x) hc 3 (show 3 < 4 by omega) 220 _ rfl 66 rfl r q h (by omega)]
    in_block 3 220 66 r q h (by omega)
    obtain ⟨r', hr'⟩ : ∃ r' : Fin 220, r' = ⟨r.val - 66, by omega⟩ := ⟨_, rfl⟩
    rw [← hr', deg3_apply]
    have hr2 := r'.isLt
    rcases (show r'.val < 55 ∨ (55 ≤ r'.val ∧ r'.val < 100) ∨ (100 ≤ r'.val ∧ r'.val < 136)
        ∨ (136 ≤ r'.val ∧ r'.val < 164) ∨ (164 ≤ r'.val ∧ r'.val < 185) ∨ (185 ≤ r'.val ∧ r'.val < 200)
        ∨ (200 ≤ r'.val ∧ r'.val < 210) ∨ (210 ≤ r'.val ∧ r'.val < 216) ∨ (216 ≤ r'.val ∧ r'.val < 219)
        ∨ 219 ≤ r'.val by omega) with g | g | g | g | g | g | g | g | g | g
    · deg3_group 0 55 0 0 (row_mul_all (k0_pay2 x) (k0_pay4 x) 0 (by omega)) (r'.val - 0) r' q (Nat.zero_le _) (by omega)
    · deg3_group 1 45 55 10 (row_mul_rows (k0_pay2 x) (k0_pay4 x) 1 10 (by omega) (show 10 + 45 ≤ 55 by omega)) (10 + (r'.val - 55)) r' q g.1 g.2
    · deg3_group 2 36 100 19 (row_mul_rows (k0_pay2 x) (k0_pay4 x) 2 19 (by omega) (show 19 + 36 ≤ 55 by omega)) (19 + (r'.val - 100)) r' q g.1 g.2
    · deg3_group 3 28 136 27 (row_mul_rows (k0_pay2 x) (k0_pay4 x) 3 27 (by omega) (show 27 + 28 ≤ 55 by omega)) (27 + (r'.val - 136)) r' q g.1 g.2
    · deg3_group 4 21 164 34 (row_mul_rows (k0_pay2 x) (k0_pay4 x) 4 34 (by omega) (show 34 + 21 ≤ 55 by omega)) (34 + (r'.val - 164)) r' q g.1 g.2
    · deg3_group 5 15 185 40 (row_mul_rows (k0_pay2 x) (k0_pay4 x) 5 40 (by omega) (show 40 + 15 ≤ 55 by omega)) (40 + (r'.val - 185)) r' q g.1 g.2
    · deg3_group 6 10 200 45 (row_mul_rows (k0_pay2 x) (k0_pay4 x) 6 45 (by omega) (show 45 + 10 ≤ 55 by omega)) (45 + (r'.val - 200)) r' q g.1 g.2
    · deg3_group 7 6 210 49 (row_mul_rows (k0_pay2 x) (k0_pay4 x) 7 49 (by omega) (show 49 + 6 ≤ 55 by omega)) (49 + (r'.val - 210)) r' q g.1 g.2
    · deg3_group 8 3 216 52 (row_mul_rows (k0_pay2 x) (k0_pay4 x) 8 52 (by omega) (show 52 + 3 ≤ 55 by omega)) (52 + (r'.val - 216)) r' q g.1 g.2
    · deg3_group 9 1 219 54 (row_mul_row (k0_pay2 x) (k0_pay4 x) 9 54 (by omega) (by omega)) (54) r' q g (by omega)

/-- WHAT THE BODY STORES: the table of monomials of the block it read. -/
theorem pay1_eq (hc : Shape.Concatenates (blockShapes 2048) ⟨2, ![286, 2048]⟩ (0 : Fin 2)) (x : Vec Ideal S10x2048 .f32) :
    k0_pay1 (F := Ideal) (k0_pay2 x) k0_pay3 (k0_pay4 x) (k0_pay5 x) (k0_pay6 x) (k0_pay7 x) (k0_pay8 x) (k0_pay9 x)
      = ver hc x := by
  funext i
  obtain ⟨r, q, rfl⟩ : ∃ (r : Fin 286) (q : Fin 2048), i = ix2 r q := ⟨i 0, i 1, eq_ix2 i⟩
  exact pay1_apply hc x r q

end Cert.KernelIdeal.KerVer

end
-- ==== Proof.KerVerArr.lean ====
/-
  The kernel's first region as a whole: the array it leaves is the table of monomials of the array it read.

  The 128 grid points each take 2048 columns: point `t` reads columns `2048 t, …, 2048 t + 2047` of the 10-row
  input and writes the same columns of the 286-row output. What it writes is the table of its block, and an entry of
  the table depends on its own column only, so the block written is that block of the table of the whole input; the
  blocks tile the output.
-/
import proofs.«167303_j9311489098219_2_alg».proof.Proof.Gen.KernelIdeal.Frame
import proofs.«167303_j9311489098219_2_alg».proof.Proof.KerVer

set_option maxRecDepth 16384

noncomputable section

namespace Cert.KernelIdeal.KerVerArr

open Idealize.ShloMosaic Idealize.ShloMosaic.TcCoe Idealize.ShloMosaic.ValueIdx
open Idealize.SL.Sem
open Idealize.ShloMosaic.Pipeline (Dat Cfg Window)
open Cert.Veronese Cert.KernelIdeal Cert.KernelIdeal.Gen Cert.KernelIdeal.KerVer

variable (V : (c : Dev nD) → (b : Ref sig .tc) → Buf (Elt Ideal) ((c : Thread nD τ).loc b))

theorem hz : (![0, 0] : Fin 2 → Nat) = fun _ => 0 := funext fun a => by fin_cases a <;> rfl

/-- The four blocks of a 2048-column table stack to 286 rows. -/
theorem hcB : Shape.Concatenates (blockShapes 2048) ⟨2, ![286, 2048]⟩ (0 : Fin 2) := by decide
/-- The four blocks of the whole table stack to 286 rows. -/
theorem hcW : Shape.Concatenates (blockShapes 262144) ⟨2, ![286, 262144]⟩ (0 : Fin 2) := by decide

/-- The index maps over the 128 points: both windows take block row 0 and block column `t`. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- Point `t`'s input block is columns `2048 t, …` of the input. -/
theorem iblk_apply (c : Dev nD) (t : Fin cfg0.N) (a : Fin 10) (q : Fin 2048) :
    iblk0 V c 0 t (ix2 a q) = V c main_v0 (ix2 a (⟨2048 * t.val + q.val, by have ht : t.val < 128 := t.isLt; have := q.isLt; omega⟩ : Fin 262144)) := by
  obtain ⟨e0, e1, e2, e3⟩ := idx_facts t
  show V c main_v0 (((cfg0.win 0).blk t).view.emb (ix2 a q)) = _
  refine congrArg (V c main_v0) (funext fun ax => Fin.ext ?_)
  match ax with
  | ⟨0, _⟩ => show win0_0.index t (0 : Fin 2) * 10 + 1 * a.val = a.val; omega
  | ⟨1, _⟩ => show win0_0.index t (1 : Fin 2) * 2048 + 1 * q.val = 2048 * t.val + q.val; omega

/-- WHAT POINT `t` WRITES BACK is block `t` of the table of the whole input. -/
theorem flushed_eq (c : Dev nD) (t : Fin cfg0.N) :
    (dat0 V c).flushed 1 t = ((cfg0.win 1).blk t).view.read (Elt Ideal) (ver hcW (V c main_v0)) := by
  show (cfg0.win 1).cut (grid0.coords t) ((dat0 V c).after 1 t) = _
  rw [after0_1]
  unfold out0_1
  rw [View.canon_unit_zero hz]
  simp only [View.ld_unit_zero (S := S10x2048) hz]
  rw [pay1_eq hcB]
  obtain ⟨e0, e1, e2, e3⟩ := idx_facts t
  funext j
  show ver hcB (iblk0 V c 0 t) j = ver hcW (V c main_v0) (((cfg0.win 1).blk t).view.emb j)
  have hj0 : (j 0).val < 286 := (j 0).isLt
  have hj1 : (j 1).val < 2048 := (j 1).isLt
  have ht : t.val < 128 := t.isLt
  have hemb : ((cfg0.win 1).blk t).view.emb j
      = ix2 (⟨(j 0).val, hj0⟩ : Fin 286) (⟨2048 * t.val + (j 1).val, by omega⟩ : Fin 262144) := by
    funext ax; apply Fin.ext
    match ax with
    | ⟨0, _⟩ => show win0_1.index t (0 : Fin 2) * 286 + 1 * (j 0).val = (j 0).val; omega
    | ⟨1, _⟩ => show win0_1.index t (1 : Fin 2) * 2048 + 1 * (j 1).val = 2048 * t.val + (j 1).val; omega
  rw [hemb]
  have ej : j = ix2 (⟨(j 0).val, hj0⟩ : Fin 286) (⟨(j 1).val, hj1⟩ : Fin 2048) := eq_ix2 j
  exact (congrArg (ver hcB (iblk0 V c 0 t)) ej).trans
    (ver_cols hcW hcB (V c main_v0) (iblk0 V c 0 t) _ _ (fun a => iblk_apply V c t a _) _)

/-- An index of the output is in point `t`'s block iff each coordinate is in the block's range on its axis. -/
theorem mem_blk (t : Fin cfg0.N) (i : S286x262144.Idx) :
    i ∈ ((cfg0.win 1).blk t).view.set ↔ ∀ a : Fin 2, win0_1.index t a * S286x2048.size a ≤ (i a).val
      ∧ (i a).val < win0_1.index t a * S286x2048.size a + S286x2048.size a := by
  show i ∈ ((View.whole main_v1).slice (win0_1.rect t)).set ↔ _
  rw [View.set_slice_whole, Rect.mem_set_unit]
  exact Iff.rfl

/-- The blocks tile the output: column `n` is in the block of point `n / 2048`. -/
theorem cover (i : S286x262144.Idx) :
    ∃ t : Fin cfg0.N, (cfg0.win 1).flush t = true ∧ i ∈ ((cfg0.win 1).blk t).view.set := by
  have hi0 : (i 0).val < 286 := (i 0).isLt
  have hi1 : (i 1).val < 262144 := (i 1).isLt
  have ht : (i 1).val / 2048 < 128 := by omega
  refine ⟨⟨(i 1).val / 2048, ht⟩, flush0_1 _, ?_⟩
  rw [mem_blk]
  obtain ⟨e0, e1, e2, e3⟩ := idx_facts ⟨(i 1).val / 2048, ht⟩
  intro a
  match a with
  | ⟨0, _⟩ =>
    show win0_1.index ⟨(i 1).val / 2048, ht⟩ (0 : Fin 2) * 286 ≤ (i 0).val
      ∧ (i 0).val < win0_1.index ⟨(i 1).val / 2048, ht⟩ (0 : Fin 2) * 286 + 286
    omega
  | ⟨1, _⟩ =>
    show win0_1.index ⟨(i 1).val / 2048, ht⟩ (1 : Fin 2) * 2048 ≤ (i 1).val
      ∧ (i 1).val < win0_1.index ⟨(i 1).val / 2048, ht⟩ (1 : Fin 2) * 2048 + 2048
    have e3' : win0_1.index ⟨(i 1).val / 2048, ht⟩ (1 : Fin 2) = (i 1).val / 2048 := e3
    omega

/-- THE ARRAY THE REGION LEAVES: the table of monomials of the array it read. -/
theorem ver_array (c : Dev nD) : (dat0 V c).arrAt 1 cfg0.N = ver hcW (V c main_v0) :=
  (dat0 V c).arrAt_eq_of_cover 1 (ver hcW (V c main_v0)) (fun t _ => flushed_eq V c t) cover

end Cert.KernelIdeal.KerVerArr

end
-- ==== Proof.KerChain.lean ====
/-
  The result buffer read back to the launch memory.

  The program is three stretches of host operations around two regions. Read from the end: the result buffer is the
  reshape to 262144 × 1 × 1 of the second region's result array; that array is the quadratic form of every row of the
  region's first operand in its second (`KerQuad.quad_array`); the first operand is the reshape to 262144 × 286 of the
  first region's result array, which is the table of monomials of the region's operand (`KerVerArr.ver_array`), itself
  the reshape to 10 × 262144 of the first argument; the second operand is the second argument changed of float format,
  which at the ideal values is the argument itself, and no operation and no region before it writes that argument. Put
  together, the result buffer is `Cert.Veronese.result` of the two arguments as launched (`result_eq`).
-/
import proofs.«167303_j9311489098219_2_alg».proof.Proof.Gen.KernelIdeal.Frame
import proofs.«167303_j9311489098219_2_alg».proof.Proof.Spec
import proofs.«167303_j9311489098219_2_alg».proof.Proof.KerQuad
import proofs.«167303_j9311489098219_2_alg».proof.Proof.KerVerArr
import Idealize.ShloMosaic.Lib.Pipeline.Value
import Idealize.ShloMosaic.Lib.StableHlo.Run

noncomputable section

namespace Cert.KernelIdeal.KerChain

open Cert.KernelIdeal Cert.KernelIdeal.Gen
open Idealize.ShloMosaic Idealize.ShloMosaic.TcCoe Idealize.SL.Sem Idealize.ShloMosaic.ValueIdx
open Idealize.ShloMosaic.Pipeline (Dat)

section Steps
variable (m : (ℓ : Loc nD τ sig) → Buf (Elt Ideal) ℓ) (ρ : Dev nD → PrngReg)

/-! ## The host operations, read at the buffers they write -/

/-- The last reshape: the result buffer is the second region's result array at the shape 262144 × 1 × 1. -/
theorem W5_v5 (c : Dev nD) :
    W5 (F := Ideal) m ρ c (Proc.devRef .tc main_v5)
      = shapeCast (s := S262144) (α := EReal) S262144x1x1 (W4 (F := Ideal) m ρ c (Proc.devRef .tc main_v4)) shapeCasts_S262144_S262144x1x1 := by
  show StableHlo.after hostOps2 (W4 (F := Ideal) m ρ c) (Proc.devRef .tc main_v5) = _
  dsimp only [hostOps2]
  after_results
  rfl

/-- The reshape between the regions: the second region's first operand is the first region's result array at the shape
    262144 × 286. -/
theorem V3_v2 (c : Dev nD) :
    V3 (F := Ideal) m ρ c main_v2
      = shapeCast (s := S286x262144) (α := EReal) S262144x286 (W2 (F := Ideal) m ρ c (Proc.devRef .tc main_v1)) shapeCasts_S286x262144_S262144x286 := by
  show StableHlo.after hostOps1 (W2 (F := Ideal) m ρ c) (Proc.devRef .tc main_v2) = _
  dsimp only [hostOps1]
  after_results
  rfl

/-- The change of format between the regions is the identity at the ideal values: the second region's second operand is
    the matrix argument as the first region leaves it. -/
theorem V3_v3 (c : Dev nD) :
    (V3 (F := Ideal) m ρ c main_v3 : S286x286.Idx → EReal) = (W2 (F := Ideal) m ρ c (Proc.devRef .tc main_arg1) : S286x286.Idx → EReal) := by
  show StableHlo.after hostOps1 (W2 (F := Ideal) m ρ c) (Proc.devRef .tc main_v3) = _
  dsimp only [hostOps1]
  after_results
  rfl

/-- The first reshape: the first region's operand is the argument at the shape 10 × 262144. -/
theorem V1_v0 (c : Dev nD) :
    V1 (F := Ideal) m ρ c main_v0
      = shapeCast (s := S262144x10) (α := EReal) S10x262144 (m ((c : Thread nD τ).loc main_arg0)) shapeCasts_S262144x10_S10x262144 := by
  show StableHlo.after hostOps0 (W0 (F := Ideal) m ρ c) (Proc.devRef .tc main_v0) = _
  dsimp only [hostOps0]
  after_results
  rfl

/-! ## The regions' arrays, and the matrix argument walked back to the launch -/

/-- The second region's result array is what its pipeline leaves in window 2. -/
theorem W4_v4 (c : Dev nD) :
    W4 (F := Ideal) m ρ c (Proc.devRef .tc main_v4) = (dat1 (F := Ideal) (V3 m ρ) c).arrAt 2 cfg1.N :=
  W4_arr m ρ c 2

/-- The first region's result array is what its pipeline leaves in window 1. -/
theorem W2_v1 (c : Dev nD) :
    W2 (F := Ideal) m ρ c (Proc.devRef .tc main_v1) = (dat0 (F := Ideal) (V1 m ρ) c).arrAt 1 cfg0.N :=
  W2_arr m ρ c 1

/-- Neither the first reshape nor the first region writes the matrix argument: after them it is as launched. -/
theorem W2_arg1 (c : Dev nD) :
    W2 (F := Ideal) m ρ c (Proc.devRef .tc main_arg1) = m ((c : Thread nD τ).loc main_arg1) :=
  calc W2 (F := Ideal) m ρ c (Proc.devRef .tc main_arg1)
    _ = W1 (F := Ideal) m ρ c (Proc.devRef .tc main_arg1) := W2_of_ne m ρ c main_arg1 (by decide)
    _ = W0 (F := Ideal) m ρ c (Proc.devRef .tc main_arg1) :=
        StableHlo.after_of_forall_not_mem (b := Proc.devRef .tc main_arg1) _ _ (List.forall_iff_forall_mem.mp (by
          simp only [hostOps0, List.Forall, StableHlo.reshape_writes, Finset.mem_singleton]
          exact StableHlo.devRef_ne_of_ne (by decide)))
    _ = m ((c : Thread nD τ).loc main_arg1) := rfl

end Steps

/-! ## The result buffer -/

/-- THE RESULT BUFFER after the run, as one function of the two arguments as launched. -/
theorem result_eq (m : (ℓ : Loc nD τ sig) → Buf (Elt Ideal) ℓ) (ρ : Dev nD → PrngReg) (c : Dev nD) :
    Cert.KernelIdeal.Gen.W5 (F := Ideal) m ρ c (Proc.devRef .tc main_v5)
      = Cert.Veronese.result shapeCasts_S262144x10_S10x262144 Cert.KernelIdeal.KerVerArr.hcW shapeCasts_S286x262144_S262144x286 shapeCasts_S262144_S262144x1x1
          (m ((c : Thread nD τ).loc main_arg0)) (m ((c : Thread nD τ).loc main_arg1)) := by
  rw [W5_v5, W4_v4, KerQuad.quad_array, V3_v2, V3_v3, W2_arg1, W2_v1, KerVerArr.ver_array, V1_v0]
  rfl

end Cert.KernelIdeal.KerChain

end
-- ==== Proof.RefRun.lean ====
/-
  The run of the reference program: its @main is a straight line of 53 host operations, so every weakly fair
  execution terminates with each buffer at the operations' composed value of the two arguments' launch contents
  and the arguments unchanged. The composed value of the result is stated through named intermediate values
  (`t0` … `t35`), one per stage of the computation, as functions of the arguments' contents.
-/
import proofs.«167303_j9311489098219_2_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-! ## The composed value, stage by stage -/

/-- A table of 55 indices as the column of start indices a gather reads: ten added where the all-false mask
    selects (nowhere), then each entry placed in a row of its own. -/
def col55 (lit : Fin 55 → BitVec 32) : (⟨S55x1, .i32⟩ : BufTy).Contents (Elt F) :=
  (broadcastInDim S55x1 ![0] bcast_S55_S55x1_0 : (⟨S55, .i32⟩ : BufTy).Contents (Elt F) → (⟨S55x1, .i32⟩ : BufTy).Contents (Elt F))
    ((select : (⟨S55, .i1⟩ : BufTy).Contents (Elt F) → (⟨S55, .i32⟩ : BufTy).Contents (Elt F) → (⟨S55, .i32⟩ : BufTy).Contents (Elt F) → (⟨S55, .i32⟩ : BufTy).Contents (Elt F))
      (constantI S55 1 0#1)
      ((addi : (⟨S55, .i32⟩ : BufTy).Contents (Elt F) → (⟨S55, .i32⟩ : BufTy).Contents (Elt F) → (⟨S55, .i32⟩ : BufTy).Contents (Elt F))
        (fun i => lit (S55.rowMajor i))
        ((broadcastInDim S55 ![] bcast_S_S55 : (⟨S_, .i32⟩ : BufTy).Contents (Elt F) → (⟨S55, .i32⟩ : BufTy).Contents (Elt F)) (constantI S_ 32 10#32)))
      (fun i => lit (S55.rowMajor i)))

/-- The same for a table of 220 indices. -/
def col220 (lit : Fin 220 → BitVec 32) : (⟨S220x1, .i32⟩ : BufTy).Contents (Elt F) :=
  (broadcastInDim S220x1 ![0] bcast_S220_S220x1_0 : (⟨S220, .i32⟩ : BufTy).Contents (Elt F) → (⟨S220x1, .i32⟩ : BufTy).Contents (Elt F))
    ((select : (⟨S220, .i1⟩ : BufTy).Contents (Elt F) → (⟨S220, .i32⟩ : BufTy).Contents (Elt F) → (⟨S220, .i32⟩ : BufTy).Contents (Elt F) → (⟨S220, .i32⟩ : BufTy).Contents (Elt F))
      (constantI S220 1 0#1)
      ((addi : (⟨S220, .i32⟩ : BufTy).Contents (Elt F) → (⟨S220, .i32⟩ : BufTy).Contents (Elt F) → (⟨S220, .i32⟩ : BufTy).Contents (Elt F))
        (fun i => lit (S220.rowMajor i))
        ((broadcastInDim S220 ![] bcast_S_S220 : (⟨S_, .i32⟩ : BufTy).Contents (Elt F) → (⟨S220, .i32⟩ : BufTy).Contents (Elt F)) (constantI S_ 32 10#32)))
      (fun i => lit (S220.rowMajor i)))

/-- The first argument reread row-major as 10 rows. -/
def t0 (x : (⟨S262144x10, .f32⟩ : BufTy).Contents (Elt F)) : (⟨S10x262144, .f32⟩ : BufTy).Contents (Elt F) :=
  shapeCast S10x262144 x shapeCasts_S262144x10_S10x262144

/-- The row of ones. -/
def t1 : (⟨S1x262144, .f32⟩ : BufTy).Contents (Elt F) :=
  (broadcastInDim S1x262144 ![] bcast_S_S1x262144 : (⟨S_, .f32⟩ : BufTy).Contents (Elt F) → (⟨S1x262144, .f32⟩ : BufTy).Contents (Elt F))
    (constant S_ .f32 0x3F800000#32)

/-- The rows of `t0` a table of 55 indices names. -/
def g55 (x : (⟨S262144x10, .f32⟩ : BufTy).Contents (Elt F)) (lit : Fin 55 → BitVec 32) : (⟨S55x262144, .f32⟩ : BufTy).Contents (Elt F) :=
  Host.gather gather_S10x262144_S55x1_S55x262144_1_0_n_n_0_1_1262144 (t0 x) (col55 (F := F) lit)

/-- The rows of `t0` a table of 220 indices names. -/
def g220 (x : (⟨S262144x10, .f32⟩ : BufTy).Contents (Elt F)) (lit : Fin 220 → BitVec 32) : (⟨S220x262144, .f32⟩ : BufTy).Contents (Elt F) :=
  Host.gather gather_S10x262144_S220x1_S220x262144_1_0_n_n_0_1_1262144 (t0 x) (col220 (F := F) lit)

/-- The products of two rows. -/
def t12 (x : (⟨S262144x10, .f32⟩ : BufTy).Contents (Elt F)) : (⟨S55x262144, .f32⟩ : BufTy).Contents (Elt F) :=
  mulf (g55 x lit0) (g55 x lit1)

/-- The products of three rows. -/
def t29 (x : (⟨S262144x10, .f32⟩ : BufTy).Contents (Elt F)) : (⟨S220x262144, .f32⟩ : BufTy).Contents (Elt F) :=
  mulf (mulf (g220 x lit2) (g220 x lit3)) (g220 x lit4)

/-- The four blocks stacked. -/
def t30 (x : (⟨S262144x10, .f32⟩ : BufTy).Contents (Elt F)) : (⟨S286x262144, .f32⟩ : BufTy).Contents (Elt F) :=
  concatenate S286x262144 0 [⟨S1x262144, t1⟩, ⟨S10x262144, t0 x⟩, ⟨S55x262144, t12 x⟩, ⟨S220x262144, t29 x⟩]
    concatenates_S1x262144_S10x262144_S55x262144_S220x262144_S286x262144_d0

/-- The stack reread row-major as 262144 rows of 286. -/
def t31 (x : (⟨S262144x10, .f32⟩ : BufTy).Contents (Elt F)) : (⟨S262144x286, .f32⟩ : BufTy).Contents (Elt F) :=
  shapeCast S262144x286 (t30 x) shapeCasts_S286x262144_S262144x286

/-- Its product with the second argument. -/
def t32 (x : (⟨S262144x10, .f32⟩ : BufTy).Contents (Elt F)) (M : (⟨S286x286, .f32⟩ : BufTy).Contents (Elt F)) :
    (⟨S262144x286, .f32⟩ : BufTy).Contents (Elt F) :=
  Host.dotGeneral dot_S262144x286_S286x286_S262144x286_1_0_0_1_n_n none (t31 x) M

/-- That product times `t31`, entry by entry. -/
def t33 (x : (⟨S262144x10, .f32⟩ : BufTy).Contents (Elt F)) (M : (⟨S286x286, .f32⟩ : BufTy).Contents (Elt F)) :
    (⟨S262144x286, .f32⟩ : BufTy).Contents (Elt F) :=
  mulf (t32 x M) (t31 x)

/-- Its row sums, from the zero word. -/
def t34 (x : (⟨S262144x10, .f32⟩ : BufTy).Contents (Elt F)) (M : (⟨S286x286, .f32⟩ : BufTy).Contents (Elt F)) :
    (⟨S262144, .f32⟩ : BufTy).Contents (Elt F) :=
  Host.reduceAdd (t33 x M) (constant S_ .f32 0x00000000#32) reducesTo_S262144x286_S262144_d1 h_S_

/-- The row sums as a 262144 × 1 × 1 array: the result. -/
def t35 (x : (⟨S262144x10, .f32⟩ : BufTy).Contents (Elt F)) (M : (⟨S286x286, .f32⟩ : BufTy).Contents (Elt F)) :
    (⟨S262144x1x1, .f32⟩ : BufTy).Contents (Elt F) :=
  shapeCast S262144x1x1 (t34 x M) shapeCasts_S262144_S262144x1x1

/-! ## The run -/

/-- @main's 53 operations, in order. -/
abbrev ops : List (HloOp τ sig (Elt F)) :=
  [ StableHlo.nullary main_c (fun i => lit0 (S55.rowMajor i)),
    StableHlo.nullary main_c_0 (constantI S55 1 0#1),
    StableHlo.nullary main_c_1 (fun i => lit1 (S55.rowMajor i)),
    StableHlo.nullary main_c_2 (constantI S55 1 0#1),
    StableHlo.nullary main_c_3 (fun i => lit2 (S220.rowMajor i)),
    StableHlo.nullary main_c_4 (constantI S220 1 0#1),
    StableHlo.nullary main_c_5 (fun i => lit3 (S220.rowMajor i)),
    StableHlo.nullary main_c_6 (constantI S220 1 0#1),
    StableHlo.nullary main_c_7 (fun i => lit4 (S220.rowMajor i)),
    StableHlo.nullary main_c_8 (constantI S220 1 0#1),
    StableHlo.reshape main_arg0 main_v0 rfl shapeCasts_S262144x10_S10x262144,
    StableHlo.nullary main_cst (constant S_ .f32 0x3F800000#32),
    StableHlo.unary main_cst main_v1 (broadcastInDim S1x262144 ![] bcast_S_S1x262144 : (⟨S_, .f32⟩ : BufTy).Contents (Elt F) → (⟨S1x262144, .f32⟩ : BufTy).Contents (Elt F)),
    StableHlo.nullary main_c_9 (constantI S_ 32 10#32),
    StableHlo.unary main_c_9 main_v2 (broadcastInDim S55 ![] bcast_S_S55 : (⟨S_, .i32⟩ : BufTy).Contents (Elt F) → (⟨S55, .i32⟩ : BufTy).Contents (Elt F)),
    StableHlo.binary main_c main_v2 main_v3 (addi : (⟨S55, .i32⟩ : BufTy).Contents (Elt F) → (⟨S55, .i32⟩ : BufTy).Contents (Elt F) → (⟨S55, .i32⟩ : BufTy).Contents (Elt F)),
    StableHlo.ternary main_c_0 main_v3 main_c main_v4 (select : (⟨S55, .i1⟩ : BufTy).Contents (Elt F) → (⟨S55, .i32⟩ : BufTy).Contents (Elt F) → (⟨S55, .i32⟩ : BufTy).Contents (Elt F) → (⟨S55, .i32⟩ : BufTy).Contents (Elt F)),
    StableHlo.unary main_v4 main_v5 (broadcastInDim S55x1 ![0] bcast_S55_S55x1_0 : (⟨S55, .i32⟩ : BufTy).Contents (Elt F) → (⟨S55x1, .i32⟩ : BufTy).Contents (Elt F)),
    StableHlo.binary main_v0 main_v5 main_v6 ((fun x i => Host.gather gather_S10x262144_S55x1_S55x262144_1_0_n_n_0_1_1262144 x i) : (⟨S10x262144, .f32⟩ : BufTy).Contents (Elt F) → (⟨S55x1, .i32⟩ : BufTy).Contents (Elt F) → (⟨S55x262144, .f32⟩ : BufTy).Contents (Elt F)),
    StableHlo.nullary main_c_10 (constantI S_ 32 10#32),
    StableHlo.unary main_c_10 main_v7 (broadcastInDim S55 ![] bcast_S_S55 : (⟨S_, .i32⟩ : BufTy).Contents (Elt F) → (⟨S55, .i32⟩ : BufTy).Contents (Elt F)),
    StableHlo.binary main_c_1 main_v7 main_v8 (addi : (⟨S55, .i32⟩ : BufTy).Contents (Elt F) → (⟨S55, .i32⟩ : BufTy).Contents (Elt F) → (⟨S55, .i32⟩ : BufTy).Contents (Elt F)),
    StableHlo.ternary main_c_2 main_v8 main_c_1 main_v9 (select : (⟨S55, .i1⟩ : BufTy).Contents (Elt F) → (⟨S55, .i32⟩ : BufTy).Contents (Elt F) → (⟨S55, .i32⟩ : BufTy).Contents (Elt F) → (⟨S55, .i32⟩ : BufTy).Contents (Elt F)),
    StableHlo.unary main_v9 main_v10 (broadcastInDim S55x1 ![0] bcast_S55_S55x1_0 : (⟨S55, .i32⟩ : BufTy).Contents (Elt F) → (⟨S55x1, .i32⟩ : BufTy).Contents (Elt F)),
    StableHlo.binary main_v0 main_v10 main_v11 ((fun x i => Host.gather gather_S10x262144_S55x1_S55x262144_1_0_n_n_0_1_1262144 x i) : (⟨S10x262144, .f32⟩ : BufTy).Contents (Elt F) → (⟨S55x1, .i32⟩ : BufTy).Contents (Elt F) → (⟨S55x262144, .f32⟩ : BufTy).Contents (Elt F)),
    StableHlo.binary main_v6 main_v11 main_v12 (mulf : (⟨S55x262144, .f32⟩ : BufTy).Contents (Elt F) → (⟨S55x262144, .f32⟩ : BufTy).Contents (Elt F) → (⟨S55x262144, .f32⟩ : BufTy).Contents (Elt F)),
    StableHlo.nullary main_c_11 (constantI S_ 32 10#32),
    StableHlo.unary main_c_11 main_v13 (broadcastInDim S220 ![] bcast_S_S220 : (⟨S_, .i32⟩ : BufTy).Contents (Elt F) → (⟨S220, .i32⟩ : BufTy).Contents (Elt F)),
    StableHlo.binary main_c_3 main_v13 main_v14 (addi : (⟨S220, .i32⟩ : BufTy).Contents (Elt F) → (⟨S220, .i32⟩ : BufTy).Contents (Elt F) → (⟨S220, .i32⟩ : BufTy).Contents (Elt F)),
    StableHlo.ternary main_c_4 main_v14 main_c_3 main_v15 (select : (⟨S220, .i1⟩ : BufTy).Contents (Elt F) → (⟨S220, .i32⟩ : BufTy).Contents (Elt F) → (⟨S220, .i32⟩ : BufTy).Contents (Elt F) → (⟨S220, .i32⟩ : BufTy).Contents (Elt F)),
    StableHlo.unary main_v15 main_v16 (broadcastInDim S220x1 ![0] bcast_S220_S220x1_0 : (⟨S220, .i32⟩ : BufTy).Contents (Elt F) → (⟨S220x1, .i32⟩ : BufTy).Contents (Elt F)),
    StableHlo.binary main_v0 main_v16 main_v17 ((fun x i => Host.gather gather_S10x262144_S220x1_S220x262144_1_0_n_n_0_1_1262144 x i) : (⟨S10x262144, .f32⟩ : BufTy).Contents (Elt F) → (⟨S220x1, .i32⟩ : BufTy).Contents (Elt F) → (⟨S220x262144, .f32⟩ : BufTy).Contents (Elt F)),
    StableHlo.nullary main_c_12 (constantI S_ 32 10#32),
    StableHlo.unary main_c_12 main_v18 (broadcastInDim S220 ![] bcast_S_S220 : (⟨S_, .i32⟩ : BufTy).Contents (Elt F) → (⟨S220, .i32⟩ : BufTy).Contents (Elt F)),
    StableHlo.binary main_c_5 main_v18 main_v19 (addi : (⟨S220, .i32⟩ : BufTy).Contents (Elt F) → (⟨S220, .i32⟩ : BufTy).Contents (Elt F) → (⟨S220, .i32⟩ : BufTy).Contents (Elt F)),
    StableHlo.ternary main_c_6 main_v19 main_c_5 main_v20 (select : (⟨S220, .i1⟩ : BufTy).Contents (Elt F) → (⟨S220, .i32⟩ : BufTy).Contents (Elt F) → (⟨S220, .i32⟩ : BufTy).Contents (Elt F) → (⟨S220, .i32⟩ : BufTy).Contents (Elt F)),
    StableHlo.unary main_v20 main_v21 (broadcastInDim S220x1 ![0] bcast_S220_S220x1_0 : (⟨S220, .i32⟩ : BufTy).Contents (Elt F) → (⟨S220x1, .i32⟩ : BufTy).Contents (Elt F)),
    StableHlo.binary main_v0 main_v21 main_v22 ((fun x i => Host.gather gather_S10x262144_S220x1_S220x262144_1_0_n_n_0_1_1262144 x i) : (⟨S10x262144, .f32⟩ : BufTy).Contents (Elt F) → (⟨S220x1, .i32⟩ : BufTy).Contents (Elt F) → (⟨S220x262144, .f32⟩ : BufTy).Contents (Elt F)),
    StableHlo.binary main_v17 main_v22 main_v23 (mulf : (⟨S220x262144, .f32⟩ : BufTy).Contents (Elt F) → (⟨S220x262144, .f32⟩ : BufTy).Contents (Elt F) → (⟨S220x262144, .f32⟩ : BufTy).Contents (Elt F)),
    StableHlo.nullary main_c_13 (constantI S_ 32 10#32),
    StableHlo.unary main_c_13 main_v24 (broadcastInDim S220 ![] bcast_S_S220 : (⟨S_, .i32⟩ : BufTy).Contents (Elt F) → (⟨S220, .i32⟩ : BufTy).Contents (Elt F)),
    StableHlo.binary main_c_7 main_v24 main_v25 (addi : (⟨S220, .i32⟩ : BufTy).Contents (Elt F) → (⟨S220, .i32⟩ : BufTy).Contents (Elt F) → (⟨S220, .i32⟩ : BufTy).Contents (Elt F)),
    StableHlo.ternary main_c_8 main_v25 main_c_7 main_v26 (select : (⟨S220, .i1⟩ : BufTy).Contents (Elt F) → (⟨S220, .i32⟩ : BufTy).Contents (Elt F) → (⟨S220, .i32⟩ : BufTy).Contents (Elt F) → (⟨S220, .i32⟩ : BufTy).Contents (Elt F)),
    StableHlo.unary main_v26 main_v27 (broadcastInDim S220x1 ![0] bcast_S220_S220x1_0 : (⟨S220, .i32⟩ : BufTy).Contents (Elt F) → (⟨S220x1, .i32⟩ : BufTy).Contents (Elt F)),
    StableHlo.binary main_v0 main_v27 main_v28 ((fun x i => Host.gather gather_S10x262144_S220x1_S220x262144_1_0_n_n_0_1_1262144 x i) : (⟨S10x262144, .f32⟩ : BufTy).Contents (Elt F) → (⟨S220x1, .i32⟩ : BufTy).Contents (Elt F) → (⟨S220x262144, .f32⟩ : BufTy).Contents (Elt F)),
    StableHlo.binary main_v23 main_v28 main_v29 (mulf : (⟨S220x262144, .f32⟩ : BufTy).Contents (Elt F) → (⟨S220x262144, .f32⟩ : BufTy).Contents (Elt F) → (⟨S220x262144, .f32⟩ : BufTy).Contents (Elt F)),
    StableHlo.nary ![main_v1, main_v0, main_v12, main_v29] main_v30 (fun u => concatenate S286x262144 0 [⟨S1x262144, u 0⟩, ⟨S10x262144, u 1⟩, ⟨S55x262144, u 2⟩, ⟨S220x262144, u 3⟩] concatenates_S1x262144_S10x262144_S55x262144_S220x262144_S286x262144_d0),
    StableHlo.reshape main_v30 main_v31 rfl shapeCasts_S286x262144_S262144x286,
    StableHlo.binary main_v31 main_arg1 main_v32 ((fun l r => Host.dotGeneral dot_S262144x286_S286x286_S262144x286_1_0_0_1_n_n none l r) : (⟨S262144x286, .f32⟩ : BufTy).Contents (Elt F) → (⟨S286x286, .f32⟩ : BufTy).Contents (Elt F) → (⟨S262144x286, .f32⟩ : BufTy).Contents (Elt F)),
    StableHlo.binary main_v32 main_v31 main_v33 (mulf : (⟨S262144x286, .f32⟩ : BufTy).Contents (Elt F) → (⟨S262144x286, .f32⟩ : BufTy).Contents (Elt F) → (⟨S262144x286, .f32⟩ : BufTy).Contents (Elt F)),
    StableHlo.nullary main_cst_14 (constant S_ .f32 0x00000000#32),
    StableHlo.binary main_v33 main_cst_14 main_v34 ((fun x v => Host.reduceAdd x v reducesTo_S262144x286_S262144_d1 h_S_) : (⟨S262144x286, .f32⟩ : BufTy).Contents (Elt F) → (⟨S_, .f32⟩ : BufTy).Contents (Elt F) → (⟨S262144, .f32⟩ : BufTy).Contents (Elt F)),
    StableHlo.reshape main_v34 main_v35 rfl shapeCasts_S262144_S262144x1x1 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., reshape_bufs_sub .., nullary_bufs_sub .., unary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., binary_bufs_sub .., binary_bufs_sub .., nary_bufs_sub .., reshape_bufs_sub .., binary_bufs_sub .., binary_bufs_sub .., nullary_bufs_sub .., binary_bufs_sub .., reshape_bufs_sub ..⟩

/-- What the result buffer holds after the 53 operations: the composed value of the arguments' contents. -/
theorem after_v35 (V : Valuation τ sig (Elt F)) :
    after (ops (F := F)) V (Proc.devRef .tc main_v35) = t35 (V (Proc.devRef .tc main_arg0)) (V (Proc.devRef .tc main_arg1)) := by
  after_results_simp
  rfl

theorem after_arg0 (V : Valuation τ sig (Elt F)) :
    after (ops (F := F)) V (Proc.devRef .tc main_arg0) = V (Proc.devRef .tc main_arg0) := by
  after_results_simp

theorem after_arg1 (V : Valuation τ sig (Elt F)) :
    after (ops (F := F)) V (Proc.devRef .tc main_arg1) = V (Proc.devRef .tc main_arg1) := by
  after_results_simp

/-- On every device, for any float values, from any memory with zero counters: every weakly fair execution of
    @main terminates with the result at the composed value of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v35)
        = t35 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v35).trans (after_v35 _),
      (h c main_arg0).trans (after_arg0 _),
      (h c main_arg1).trans (after_arg1 _)⟩)
    (run_seq scopedRefs_eq scopedSems_eq defs main (fun _ => ops) main_eq (fun _ => ops_sub) m ρ)

end Cert.ReferenceIdeal.RefRun

end
-- ==== Proof.LibGatherAxis0.lean ====
/-
  `stablehlo.gather` along axis 0 at one column of start indices, read at an index.

  What `x[idx]` lowers to when `idx : [E]` is viewed as `[E, 1]` (index_vector_dim 1): for a flat table
  `x : [N]` the result `[E]` (no offset axis), for a table of rows `x : [N, D]` the result `[E, D]`
  (offset axis 1, whole rows: slice sizes `[1, D]`). In both, result entry `e` (and column `k`) is the table at
  the row `idx[e, 0]` read as a signed integer and clamped into `[0, N - 1]` (and at column `k`).
-/
import Idealize.ShloMosaic.Lib.ValueIdx

noncomputable section

namespace Idealize.ShloMosaic.GatherAxis0

open Idealize.ShloMosaic Idealize.ShloMosaic.ValueIdx

variable {α : Type}

/-- The row of a table of `n` rows a start index reads: the word read signed, clamped into `[0, n - 1]`. -/
def row {w : Nat} (n : Nat) (hn : 0 < n) (x : BitVec w) : Fin n := ⟨min x.toInt.toNat (n - 1), by omega⟩

/-- The start-indices index `[e, 0]` of the result's row `e`. -/
abbrev colIdx {E : Nat} (e : Fin E) : (⟨2, ![E, 1]⟩ : Shape).Idx := ix2 e (⟨0, Nat.one_pos⟩ : Fin 1)

/-- The dimension numbers of a flat table `[N]` gathered at start indices `[E, 1]` into `[E]`. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the table at the start index `idx[e, 0]`, read signed and clamped into `[0, N - 1]`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (flatDims N E wf) x idx y = x (ix1 (row N hN (idx (colIdx (y 0))))) := by
  unfold Host.gather
  congr 1
  funext a
  obtain rfl : a = 0 := Subsingleton.elim _ _
  refine Fin.ext ?_
  show (flatDims N E wf).start y idx 0 + (flatDims N E wf).batchCoord y 0 + (flatDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx y ⟨List.idxOf (0 : Fin 1) (flatDims N E wf).startIndexMap,
      List.idxOf_lt_length_iff.2 (List.mem_singleton.mpr rfl)⟩ = colIdx (y 0) := by
    funext b; refine Fin.ext ?_
    match b with
    | ⟨0, _⟩ => rfl
    | ⟨1, _⟩ => rfl
  rw [hsi]
  rfl

/-- The dimension numbers of a table of rows `[N, D]` gathered whole-row at start indices `[E, 1]` into `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, k)`: the table at the row `idx[e, 0]`, read signed and clamped into `[0, N - 1]`,
    and column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowDims N D E wf) x idx (ix2 e k)
      = x (ix2 (row N hN (idx (colIdx e))) k) := by
  unfold Host.gather
  congr 1
  funext a
  refine Fin.ext ?_
  match a with
  | ⟨0, _⟩ =>
    show (rowDims N D E wf).start (ix2 e k) idx 0 + (rowDims N D E wf).batchCoord (ix2 e k) 0
      + (rowDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e k) ⟨List.idxOf (0 : Fin 2) (rowDims N D E wf).startIndexMap,
        List.idxOf_lt_length_iff.2 (List.mem_singleton.mpr rfl)⟩ = colIdx e := by
      funext b; refine Fin.ext ?_
      match b with
      | ⟨0, _⟩ => rfl
      | ⟨1, _⟩ => rfl
    rw [hsi]
    rfl
  | ⟨1, _⟩ =>
    show (rowDims N D E wf).start (ix2 e k) idx 1 + (rowDims N D E wf).batchCoord (ix2 e k) 1
      + (rowDims N D E wf).offCoord (ix2 e k) 1 = k.val
    rw [GatherDims.batchCoord_eq_zero _ _ _ List.not_mem_nil]
    unfold GatherDims.start
    rw [dif_neg (show (1 : Fin 2) ∉ (rowDims N D E wf).startIndexMap from
      fun h => absurd (List.mem_singleton.mp h) (show ¬ (1 : Fin 2) = 0 by decide))]
    simp only [Nat.add_zero, Nat.zero_add]
    unfold GatherDims.offCoord
    rw [dif_pos (show (1 : Fin 2) ∈ (rowDims N D E wf).sKept from
      (GatherDims.mem_sKept _ _).mpr ⟨fun h => absurd (List.mem_singleton.mp h) (show ¬ (1 : Fin 2) = 0 by decide), List.not_mem_nil⟩)]
    rfl

end Idealize.ShloMosaic.GatherAxis0

end
-- ==== Proof.RefValue.lean ====
/-
  The value the reference program computes is the specified one.

  The reference's composed value (the stages `t0` … `t35` of the run) is identified with the specification stage by
  stage, index by index: the first argument reread as 10 rows; the broadcast constant one; each table of indices, passed
  through "add ten where the mask says so" under an all-false mask and placed in a column, is the table itself; a
  gather along the rows at such a column reads the rows the table names, and the tables name the variables of the
  monomials in lexicographic order; the products of two and of three gathered rows are the degree-2 and degree-3
  blocks (the product of the first two factors times the third is the first times the product of the other two);
  the four blocks stacked are the table of monomials; reread as rows of 286 entries, contracted with the second
  argument along the shared axis, multiplied entry by entry with itself and summed along each row from zero, it is the
  rows' quadratic forms.
-/
import proofs.«167303_j9311489098219_2_alg».proof.Proof.RefRun
import proofs.«167303_j9311489098219_2_alg».proof.Proof.Spec
import proofs.«167303_j9311489098219_2_alg».proof.Proof.LibRowOps
import proofs.«167303_j9311489098219_2_alg».proof.Proof.LibGatherAxis0
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.RefRun Idealize.ShloMosaic Idealize.ShloMosaic.TcCoe Idealize.SL.Sem
open Idealize.ShloMosaic.ValueIdx Idealize.ShloMosaic.GatherAxis0 Cert.LibRowOps Cert.Veronese
open Cert.ReferenceIdeal.Facts₀ Cert.ReferenceIdeal.Facts

variable [Cert.ReferenceIdeal.Facts]

/-! ## The index tables -/

/-- The table of 55 indices as a column of start indices holds, in row `e`, entry `e` of the table: the mask that
    would add ten is false everywhere. -/
theorem col55_apply (lit : Fin 55 → BitVec 32) (e : Fin 55) (u : Fin 1) :
    col55 (F := Ideal) lit (ix2 e u) = lit e := by
  unfold col55
  rw [broadcastInDim_a_a1_apply, select_apply]
  show Scalar.select 0#1 _ _ = _
  rw [select_zero]
  exact congrArg lit (Fin.ext (Shape.rowMajor_val_one (ix1 e)))

theorem col220_apply (lit : Fin 220 → BitVec 32) (e : Fin 220) (u : Fin 1) :
    col220 (F := Ideal) lit (ix2 e u) = lit e := by
  unfold col220
  rw [broadcastInDim_a_a1_apply, select_apply]
  show Scalar.select 0#1 _ _ = _
  rw [select_zero]
  exact congrArg lit (Fin.ext (Shape.rowMajor_val_one (ix1 e)))

/-- Each table names the variables of its block's monomials. -/
theorem lit0_row : ∀ e : Fin 55, GatherAxis0.row 10 (by decide) (lit0 e) = A2 e := by decide
theorem lit1_row : ∀ e : Fin 55, GatherAxis0.row 10 (by decide) (lit1 e) = B2 e := by decide
theorem lit2_row : ∀ e : Fin 220, GatherAxis0.row 10 (by decide) (lit2 e) = A3 e := by decide
theorem lit3_row : ∀ e : Fin 220, GatherAxis0.row 10 (by decide) (lit3 e) = B3 e := by decide
theorem lit4_row : ∀ e : Fin 220, GatherAxis0.row 10 (by decide) (lit4 e) = C3 e := by decide

/-! ## The stages, index by index -/

section Stages

variable (x : (⟨S262144x10, .f32⟩ : BufTy).Contents (Elt Ideal)) (M : (⟨S286x286, .f32⟩ : BufTy).Contents (Elt Ideal))

/-- The broadcast constant is the constant monomial everywhere. -/
theorem t1_eq : (t1 (F := Ideal)) = fun _ => Cert.Veronese.one := by
  funext j
  unfold t1
  rw [Cert.LibRowOps.broadcastInDim_scalar_apply]
  rfl

/-- A gather at a table of 55 indices reads, in row `e`, the row of `t0` the table's entry `e` names. -/
theorem g55_apply (lit : Fin 55 → BitVec 32) (e : Fin 55) (k : Fin 262144) :
    g55 (F := Ideal) x lit (ix2 e k) = t0 x (ix2 (GatherAxis0.row 10 (by decide) (lit e)) k) := by
  show Host.gather (GatherAxis0.rowDims 10 262144 55 gather_S10x262144_S55x1_S55x262144_1_0_n_n_0_1_1262144_wf)
      (t0 x) (col55 (F := Ideal) lit) (ix2 e k) = _
  rw [gather_rows_apply (by decide), col55_apply]

theorem g220_apply (lit : Fin 220 → BitVec 32) (e : Fin 220) (k : Fin 262144) :
    g220 (F := Ideal) x lit (ix2 e k) = t0 x (ix2 (GatherAxis0.row 10 (by decide) (lit e)) k) := by
  show Host.gather (GatherAxis0.rowDims 10 262144 220 gather_S10x262144_S220x1_S220x262144_1_0_n_n_0_1_1262144_wf)
      (t0 x) (col220 (F := Ideal) lit) (ix2 e k) = _
  rw [gather_rows_apply (by decide), col220_apply]

/-- The products of two gathered rows are the degree-2 block. -/
theorem t12_eq : t12 (F := Ideal) x = deg2 (t0 x) := by
  funext i
  obtain ⟨e, k, rfl⟩ : ∃ (e : Fin 55) (k : Fin 262144), i = ix2 e k := ⟨i 0, i 1, eq_ix2 i⟩
  show mulf (g55 x lit0) (g55 x lit1) (ix2 e k) = t0 x (ix2 (A2 e) k) * t0 x (ix2 (B2 e) k)
  rw [mulf_apply, g55_apply, g55_apply, lit0_row, lit1_row]

/-- The products of three gathered rows are the degree-3 block: the product of the first two times the third is the
    first times the product of the other two. -/
theorem t29_eq : t29 (F := Ideal) x = deg3 (t0 x) := by
  funext i
  obtain ⟨e, k, rfl⟩ : ∃ (e : Fin 220) (k : Fin 262144), i = ix2 e k := ⟨i 0, i 1, eq_ix2 i⟩
  show mulf (mulf (g220 x lit2) (g220 x lit3)) (g220 x lit4) (ix2 e k)
    = t0 x (ix2 (A3 e) k) * (t0 x (ix2 (B3 e) k) * t0 x (ix2 (C3 e) k))
  rw [mulf_apply, mulf_apply, g220_apply, g220_apply, g220_apply, lit2_row, lit3_row, lit4_row, mul_assoc]

/-- A stack of four blocks depends on the blocks only. -/
theorem concat4_congr {α : Type} {t : Shape} (a : Fin t.rank) {s1 s2 s3 s4 : Shape}
    {x1 y1 : s1.Idx → α} {x2 y2 : s2.Idx → α} {x3 y3 : s3.Idx → α} {x4 y4 : s4.Idx → α}
    (h : Shape.Concatenates [s1, s2, s3, s4] t a) (e1 : x1 = y1) (e2 : x2 = y2) (e3 : x3 = y3) (e4 : x4 = y4) :
    concatenate t a [⟨s1, x1⟩, ⟨s2, x2⟩, ⟨s3, x3⟩, ⟨s4, x4⟩] h = concatenate t a [⟨s1, y1⟩, ⟨s2, y2⟩, ⟨s3, y3⟩, ⟨s4, y4⟩] h := by
  subst e1 e2 e3 e4; rfl

/-- The four blocks stacked are the table of monomials of `t0`. -/
theorem t30_eq : t30 (F := Ideal) x
    = ver concatenates_S1x262144_S10x262144_S55x262144_S220x262144_S286x262144_d0 (t0 x) :=
  concat4_congr _ _ t1_eq rfl (t12_eq x) (t29_eq x)

end Stages

section Stages2

variable (x : (⟨S262144x10, .f32⟩ : BufTy).Contents (Elt Ideal)) (M : (⟨S286x286, .f32⟩ : BufTy).Contents (Elt Ideal))

/-- The stack reread as rows of 286 entries is the table of monomials reread the same way. -/
theorem t31_eq : t31 (F := Ideal) x
    = shapeCast ⟨2, ![262144, 286]⟩
        (ver concatenates_S1x262144_S10x262144_S55x262144_S220x262144_S286x262144_d0 (t0 x))
        shapeCasts_S286x262144_S262144x286 := by
  unfold t31
  rw [t30_eq]

/-- The product with the second argument at `(p, n)`: the sum over the shared axis. -/
theorem t32_apply (p : Fin 262144) (n : Fin 286) :
    t32 (F := Ideal) x M (ix2 p n) = ∑ k : Fin 286, t31 x (ix2 p k) * M (ix2 k n) := by
  unfold t32 Host.dotGeneral
  rw [Ideal.dotGeneral_apply]
  exact sum_contr dot_S262144x286_S286x286_S262144x286_1_0_0_1_n_n rfl rfl (fun _ _ => rfl) (fun _ _ => rfl)
    (fun _ _ => rfl) (fun _ _ => rfl) (t31 x) M p n

/-- The row sums from the zero word are the rows' quadratic forms. -/
theorem t34_apply (p : Fin 262144) : t34 (F := Ideal) x M (ix1 p) = rowForm (t31 x) M (ix1 p) := by
  unfold t34
  rw [hostReduceAdd_apply, hostReduceAdd_row_apply _ (by decide)]
  show Ideal.ofBits .f32 0x00000000#32 + _
    = ∑ d : Fin 286, (∑ k : Fin 286, t31 x (ix2 p k) * M (ix2 k d)) * t31 x (ix2 p d)
  rw [Ideal.ofBits_zero_f32, zero_add]
  refine Finset.sum_congr rfl fun d _ => ?_
  unfold t33
  rw [mulf_apply, t32_apply]

theorem t34_eq : t34 (F := Ideal) x M = rowForm (t31 x) M := by
  funext i
  obtain ⟨p, rfl⟩ : ∃ p : Fin 262144, i = ix1 p := ⟨i 0, eq_ix1 i⟩
  exact t34_apply x M p

/-- The composed value of the reference's operations is the specified result. -/
theorem t35_eq : t35 (F := Ideal) x M
    = Cert.Veronese.result shapeCasts_S262144x10_S10x262144
        concatenates_S1x262144_S10x262144_S55x262144_S220x262144_S286x262144_d0
        shapeCasts_S286x262144_S262144x286 shapeCasts_S262144_S262144x1x1 x M := by
  unfold t35 Cert.Veronese.result Cert.Veronese.quad
  rw [t34_eq, t31_eq]
  rfl

end Stages2

/-- Every weakly fair execution of the reference's @main terminates with the result buffer at the specified value of
    the two arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v35)
        = Cert.Veronese.result shapeCasts_S262144x10_S10x262144
            concatenates_S1x262144_S10x262144_S55x262144_S220x262144_S286x262144_d0
            shapeCasts_S286x262144_S262144x286 shapeCasts_S262144_S262144x1x1
            (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (t35_eq _ _), (h c).2.1, (h c).2.2⟩) (RefRun.run m ρ)

end Cert.ReferenceIdeal.RefValue

end
-- ==== Proof.lean ====
/-
  The certificate of the monomial-table quadratic form: a kernel of two regions against its plain array reference.

  Both programs reread the 262144 × 10 input row-major as 10 rows of 262144 points, build from it the 286-row table of
  all monomials of degree at most 3 in the ten rows (the constant, the rows, the 55 products `x_a x_b` with `a ≤ b`,
  the 220 products with `j ≤ a ≤ b`), reread the table row-major as a 262144 × 286 matrix `v`, and return for each
  of its rows the quadratic form `∑_d (∑_k v(n,k) M(k,d)) · v(n,d)` (Proof/Spec.lean: `Cert.Veronese.result`).

  The kernel's first region writes the table 2048 columns at a time; it forms a degree-3 entry as `x_j · (x_a · x_b)`
  from its degree-2 block, where the reference gathers the three rows and forms `(x_j · x_a) · x_b`. On the extended
  reals the product is associative, so the two tables are one (no finiteness is needed, and the precondition is never
  opened). The kernel's second region takes 4096 rows of `v` at a time, contracts them with `M` — the narrower
  format of its copy of `M` is the identity at the ideal values — and sums each row's products; the reference does the
  same with one product of the whole matrix and one row sum. A sum over the extended reals does not depend on how it
  is tiled, so the two results agree entry by entry.

  The pieces: Proof/KerVer.lean and Proof/KerVerArr.lean (the first region's array is the table), Proof/KerQuad.lean
  (the second region's array is the rows' quadratic forms), Proof/KerRun.lean and Proof/KerChain.lean (the kernel's run
  and its result read back to the arguments), Proof/RefRun.lean and Proof/RefValue.lean (the reference's run and its
  result). The word-level kernel needs its frame only; nothing was rewritten by the idealization, so `preserves` is
  trivial.
-/
import proofs.«167303_j9311489098219_2_alg».proof.Defs
import proofs.«167303_j9311489098219_2_alg».proof.Proof.Gen.Kernel
import proofs.«167303_j9311489098219_2_alg».proof.Proof.Gen.Kernel.Skeleton
import proofs.«167303_j9311489098219_2_alg».proof.Proof.Gen.Kernel.Launch
import proofs.«167303_j9311489098219_2_alg».proof.Proof.Gen.Kernel.Points
import proofs.«167303_j9311489098219_2_alg».proof.Proof.Gen.Kernel.Frame
import proofs.«167303_j9311489098219_2_alg».proof.Proof.Gen.KernelIdeal
import proofs.«167303_j9311489098219_2_alg».proof.Proof.Gen.KernelIdeal.Skeleton
import proofs.«167303_j9311489098219_2_alg».proof.Proof.Gen.KernelIdeal.Launch
import proofs.«167303_j9311489098219_2_alg».proof.Proof.Gen.KernelIdeal.Points
import proofs.«167303_j9311489098219_2_alg».proof.Proof.Gen.KernelIdeal.Frame
import proofs.«167303_j9311489098219_2_alg».proof.Proof.Gen.ReferenceIdeal
import proofs.«167303_j9311489098219_2_alg».proof.Proof.Gen.Pre_finite_inputs
import proofs.«167303_j9311489098219_2_alg».proof.Proof.KerRun
import proofs.«167303_j9311489098219_2_alg».proof.Proof.KerChain
import proofs.«167303_j9311489098219_2_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.RefValue.run m ρ)

/-- At the ideal values both programs end with the quadratic forms of the monomial table of the same arguments. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.KerChain.result_eq m ρ c), (h c).2⟩)
      (Cert.KernelIdeal.KerRun.run_named (F := Ideal) m ρ), ?_⟩
  refine (θ_run Cert.ReferenceIdeal.defs _ _).mono (fun r h c => ⟨?_, (h c).2⟩)
    (Cert.ReferenceIdeal.RefValue.run m' ρ')
  rw [(h c).1, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
